-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x64x64 : Shape := ⟨4, ![4, 256, 64, 64]⟩
abbrev S4x256x128x128 : Shape := ⟨4, ![4, 256, 128, 128]⟩
abbrev S256x256x1x1 : Shape := ⟨4, ![256, 256, 1, 1]⟩
abbrev S256 : Shape := ⟨1, ![256]⟩
abbrev S_ : Shape := ⟨0, ![]⟩

class Facts : Prop where
  bcast_S_S4x256x64x64 : S_.BroadcastsInDim S4x256x64x64 (![] : Fin 0 → Fin S4x256x64x64.rank)
  reducesTo_S4x256x64x64_S_d0_1_2_3 : S4x256x64x64.ReducesTo [0, 1, 2, 3] S_
  h_S_ : 0 < S_.numel
  bcast_S_S4x256x128x128 : S_.BroadcastsInDim S4x256x128x128 (![] : Fin 0 → Fin S4x256x128x128.rank)
  reducesTo_S4x256x128x128_S_d0_1_2_3 : S4x256x128x128.ReducesTo [0, 1, 2, 3] S_
  bcast_S_S256x256x1x1 : S_.BroadcastsInDim S256x256x1x1 (![] : Fin 0 → Fin S256x256x1x1.rank)
  reducesTo_S256x256x1x1_S_d0_1_2_3 : S256x256x1x1.ReducesTo [0, 1, 2, 3] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S4x256x64x64 .f32) (main_arg1 : FVec F S4x256x128x128 .f32) (main_arg2 : FVec F S256x256x1x1 .f32) (main_arg3 : FVec F S256 .f32) : IVec S_ 1 :=
  let main_v0 : FVec F S4x256x64x64 .f32 := Host.absf main_arg0
  let main_cst : FVec F S_ .f32 := constant S_ .f32 0x7F800000#32
  let main_v1 : FVec F S4x256x64x64 .f32 := broadcastInDim S4x256x64x64 ![] bcast_S_S4x256x64x64 main_cst
  let main_v2 : IVec S4x256x64x64 1 := cmpf .olt main_v0 main_v1
  let main_c : IVec S_ 1 := constantI S_ 1 1#1
  let main_v3 : IVec S_ 1 := (fun x v => Host.reduce IntOp.andi x v reducesTo_S4x256x64x64_S_d0_1_2_3 h_S_) main_v2 main_c
  let main_v4 : FVec F S4x256x128x128 .f32 := Host.absf main_arg1
  let main_cst_0 : FVec F S_ .f32 := constant S_ .f32 0x7F800000#32
  let main_v5 : FVec F S4x256x128x128 .f32 := broadcastInDim S4x256x128x128 ![] bcast_S_S4x256x128x128 main_cst_0
  let main_v6 : IVec S4x256x128x128 1 := cmpf .olt main_v4 main_v5
  let main_c_1 : IVec S_ 1 := constantI S_ 1 1#1
  let main_v7 : IVec S_ 1 := (fun x v => Host.reduce IntOp.andi x v reducesTo_S4x256x128x128_S_d0_1_2_3 h_S_) main_v6 main_c_1
  let main_v8 : IVec S_ 1 := andi main_v3 main_v7
  let main_v9 : FVec F S256x256x1x1 .f32 := Host.absf main_arg2
  let main_cst_2 : FVec F S_ .f32 := constant S_ .f32 0x7F800000#32
  let main_v10 : FVec F S256x256x1x1 .f32 := broadcastInDim S256x256x1x1 ![] bcast_S_S256x256x1x1 main_cst_2
  let main_v11 : IVec S256x256x1x1 1 := cmpf .olt main_v9 main_v10
  let main_c_3 : IVec S_ 1 := constantI S_ 1 1#1
  let main_v12 : IVec S_ 1 := (fun x v => Host.reduce IntOp.andi x v reducesTo_S256x256x1x1_S_d0_1_2_3 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S4x256x64x64 : Shape := ⟨4, ![4, 256, 64, 64]⟩
abbrev S4x256x128x128 : Shape := ⟨4, ![4, 256, 128, 128]⟩
abbrev S256x256x1x1 : Shape := ⟨4, ![256, 256, 1, 1]⟩
abbrev S256 : Shape := ⟨1, ![256]⟩
abbrev S4x64x64x256 : Shape := ⟨4, ![4, 64, 64, 256]⟩
abbrev S256x256 : Shape := ⟨2, ![256, 256]⟩
abbrev S256x1 : Shape := ⟨2, ![256, 1]⟩
abbrev S256x128 : Shape := ⟨2, ![256, 128]⟩
abbrev S1x16x64x256 : Shape := ⟨4, ![1, 16, 64, 256]⟩
abbrev S1x256x32x128 : Shape := ⟨4, ![1, 256, 32, 128]⟩
abbrev S64x128 : Shape := ⟨2, ![64, 128]⟩
abbrev S256x32x128 : Shape := ⟨3, ![256, 32, 128]⟩
abbrev S32x256x128 : Shape := ⟨3, ![32, 256, 128]⟩
abbrev S16x64x256 : Shape := ⟨3, ![16, 64, 256]⟩
abbrev S1x64x256 : Shape := ⟨3, ![1, 64, 256]⟩
abbrev S64x256 : Shape := ⟨2, ![64, 256]⟩
abbrev S1x256x128 : Shape := ⟨3, ![1, 256, 128]⟩
abbrev S1x256x1x128 : Shape := ⟨4, ![1, 256, 1, 128]⟩

abbrev nBuf : Space → Nat
  | .hbm => 10
  | .vmem => 8
  | .smem => 0
  | _ => 0

abbrev bufTy : (tb : Table) → Fin (tcTables nBuf tb) → BufTy
  | .hbm, ⟨0, _⟩ => ⟨S4x256x64x64, .f32⟩
  | .hbm, ⟨1, _⟩ => ⟨S4x256x128x128, .f32⟩
  | .hbm, ⟨2, _⟩ => ⟨S256x256x1x1, .f32⟩
  | .hbm, ⟨3, _⟩ => ⟨S256, .f32⟩
  | .hbm, ⟨4, _⟩ => ⟨S4x64x64x256, .f32⟩
  | .hbm, ⟨5, _⟩ => ⟨S256x256, .f32⟩
  | .hbm, ⟨6, _⟩ => ⟨S256x256, .bf16⟩
  | .hbm, ⟨7, _⟩ => ⟨S256x1, .f32⟩
  | .hbm, ⟨8, _⟩ => ⟨S256x128, .f32⟩
  | .hbm, ⟨9, _⟩ => ⟨S4x256x128x128, .f32⟩
  | .local _ .vmem, ⟨0, _⟩ => ⟨S1x16x64x256, .f32⟩
  | .local _ .vmem, ⟨1, _⟩ => ⟨S1x16x64x256, .f32⟩
  | .local _ .vmem, ⟨2, _⟩ => ⟨S1x256x32x128, .f32⟩
  | .local _ .vmem, ⟨3, _⟩ => ⟨S1x256x32x128, .f32⟩
  | .local _ .vmem, ⟨4, _⟩ => ⟨S256x256, .bf16⟩
  | .local _ .vmem, ⟨5, _⟩ => ⟨S256x128, .f32⟩
  | .local _ .vmem, ⟨6, _⟩ => ⟨S1x256x32x128, .f32⟩
  | .local _ .vmem, ⟨7, _⟩ => ⟨S1x256x32x128, .f32⟩
  | _, _ => ⟨S4x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x16x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S4x256x64x64_S4x64x64x256_0_2_3_1 : S4x256x64x64.Transposes [0, 2, 3, 1] S4x64x64x256
  shapeCasts_S256x256x1x1_S256x256 : S256x256x1x1.ShapeCasts S256x256
  bitsLt_bf16_f32 : FTy.bits .bf16 < FTy.bits .f32
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  iota_S64x128_d0_w32 : S64x128.Iotas .tc 32 [0]
  iota_S64x128_d1_w32 : S64x128.Iotas .tc 32 [1]
  natLt_1_32 : 1 < 32
  inb_S1x256x32x128_S1x256x32x128_0_0_0_0 : ∀ a, (![0, 0, 0, 0] : Fin 4 → Nat) a + S1x256x32x128.size a ≤ S1x256x32x128.size a
  h_S1x256x32x128 : 0 < S1x256x32x128.numel
  shapeCasts_S1x256x32x128_S256x32x128 : S1x256x32x128.ShapeCasts S256x32x128
  transposes_S256x32x128_p1_0_2_S32x256x128 : S256x32x128.Transposes [1, 0, 2] S32x256x128
  inb_S1x16x64x256_S1x16x64x256_0_0_0_0 : ∀ a, (![0, 0, 0, 0] : Fin 4 → Nat) a + S1x16x64x256.size a ≤ S1x16x64x256.size a
  h_S1x16x64x256 : 0 < S1x16x64x256.numel
  shapeCasts_S1x16x64x256_S16x64x256 : S1x16x64x256.ShapeCasts S16x64x256
  slices_S16x64x256_o0_0_0_S1x64x256 : S16x64x256.Slices ![0, 0, 0] S1x64x256
  shapeCasts_S1x64x256_S64x256 : S1x64x256.ShapeCasts S64x256
  slices_S32x256x128_o0_0_0_S1x256x128 : S32x256x128.Slices ![0, 0, 0] S1x256x128
  shapeCasts_S1x256x128_S256x128 : S1x256x128.ShapeCasts S256x128
  inb_S1x256x32x128_S1x256x1x128_0_0_0_0 : ∀ a, (![0, 0, 0, 0] : Fin 4 → Nat) a + S1x256x1x128.size a ≤ S1x256x32x128.size a
  h_S1x256x1x128 : 0 < S1x256x1x128.numel
  shapeCasts_S1x256x1x128_S256x128 : S1x256x1x128.ShapeCasts S256x128
  shapeCasts_S256x128_S1x256x1x128 : S256x128.ShapeCasts S1x256x1x128
  slices_S32x256x128_o1_0_0_S1x256x128 : S32x256x128.Slices ![1, 0, 0] S1x256x128
  inb_S1x256x32x128_S1x256x1x128_0_0_1_0 : ∀ a, (![0, 0, 1, 0] : Fin 4 → Nat) a + S1x256x1x128.size a ≤ S1x256x32x128.size a
  slices_S16x64x256_o1_0_0_S1x64x256 : S16x64x256.Slices ![1, 0, 0] S1x64x256
  slices_S32x256x128_o2_0_0_S1x256x128 : S32x256x128.Slices ![2, 0, 0] S1x256x128
  inb_S1x256x32x128_S1x256x1x128_0_0_2_0 : ∀ a, (![0, 0, 2, 0] : Fin 4 → Nat) a + S1x256x1x128.size a ≤ S1x256x32x128.size a
  slices_S32x256x128_o3_0_0_S1x256x128 : S32x256x128.Slices ![3, 0, 0] S1x256x128
  inb_S1x256x32x128_S1x256x1x128_0_0_3_0 : ∀ a, (![0, 0, 3, 0] : Fin 4 → Nat) a + S1x256x1x128.size a ≤ S1x256x32x128.size a
  slices_S16x64x256_o2_0_0_S1x64x256 : S16x64x256.Slices ![2, 0, 0] S1x64x256
  slices_S32x256x128_o4_0_0_S1x256x128 : S32x256x128.Slices ![4, 0, 0] S1x256x128
  inb_S1x256x32x128_S1x256x1x128_0_0_4_0 : ∀ a, (![0, 0, 4, 0] : Fin 4 → Nat) a + S1x256x1x128.size a ≤ S1x256x32x128.size a
  slices_S32x256x128_o5_0_0_S1x256x128 : S32x256x128.Slices ![5, 0, 0] S1x256x128
  inb_S1x256x32x128_S1x256x1x128_0_0_5_0 : ∀ a, (![0, 0, 5, 0] : Fin 4 → Nat) a + S1x256x1x128.size a ≤ S1x256x32x128.size a
  slices_S16x64x256_o3_0_0_S1x64x256 : S16x64x256.Slices ![3, 0, 0] S1x64x256
  slices_S32x256x128_o6_0_0_S1x256x128 : S32x256x128.Slices ![6, 0, 0] S1x256x128
  inb_S1x256x32x128_S1x256x1x128_0_0_6_0 : ∀ a, (![0, 0, 6, 0] : Fin 4 → Nat) a + S1x256x1x128.size a ≤ S1x256x32x128.size a
  slices_S32x256x128_o7_0_0_S1x256x128 : S32x256x128.Slices ![7, 0, 0] S1x256x128
  inb_S1x256x32x128_S1x256x1x128_0_0_7_0 : ∀ a, (![0, 0, 7, 0] : Fin 4 → Nat) a + S1x256x1x128.size a ≤ S1x256x32x128.size a
  slices_S16x64x256_o4_0_0_S1x64x256 : S16x64x256.Slices ![4, 0, 0] S1x64x256
  slices_S32x256x128_o8_0_0_S1x256x128 : S32x256x128.Slices ![8, 0, 0] S1x256x128
  inb_S1x256x32x128_S1x256x1x128_0_0_8_0 : ∀ a, (![0, 0, 8, 0] : Fin 4 → Nat) a + S1x256x1x128.size a ≤ S1x256x32x128.size a
  slices_S32x256x128_o9_0_0_S1x256x128 : S32x256x128.Slices ![9, 0, 0] S1x256x128
  inb_S1x256x32x128_S1x256x1x128_0_0_9_0 : ∀ a, (![0, 0, 9, 0] : Fin 4 → Nat) a + S1x256x1x128.size a ≤ S1x256x32x128.size a
  slices_S16x64x256_o5_0_0_S1x64x256 : S16x64x256.Slices ![5, 0, 0] S1x64x256
  slices_S32x256x128_o10_0_0_S1x256x128 : S32x256x128.Slices ![10, 0, 0] S1x256x128
  inb_S1x256x32x128_S1x256x1x128_0_0_10_0 : ∀ a, (![0, 0, 10, 0] : Fin 4 → Nat) a + S1x256x1x128.size a ≤ S1x256x32x128.size a
  slices_S32x256x128_o11_0_0_S1x256x128 : S32x256x128.Slices ![11, 0, 0] S1x256x128
  inb_S1x256x32x128_S1x256x1x128_0_0_11_0 : ∀ a, (![0, 0, 11, 0] : Fin 4 → Nat) a + S1x256x1x128.size a ≤ S1x256x32x128.size a
  slices_S16x64x256_o6_0_0_S1x64x256 : S16x64x256.Slices ![6, 0, 0] S1x64x256
  slices_S32x256x128_o12_0_0_S1x256x128 : S32x256x128.Slices ![12, 0, 0] S1x256x128
  inb_S1x256x32x128_S1x256x1x128_0_0_12_0 : ∀ a, (![0, 0, 12, 0] : Fin 4 → Nat) a + S1x256x1x128.size a ≤ S1x256x32x128.size a
  slices_S32x256x128_o13_0_0_S1x256x128 : S32x256x128.Slices ![13, 0, 0] S1x256x128
  inb_S1x256x32x128_S1x256x1x128_0_0_13_0 : ∀ a, (![0, 0, 13, 0] : Fin 4 → Nat) a + S1x256x1x128.size a ≤ S1x256x32x128.size a
  slices_S16x64x256_o7_0_0_S1x64x256 : S16x64x256.Slices ![7, 0, 0] S1x64x256
  slices_S32x256x128_o14_0_0_S1x256x128 : S32x256x128.Slices ![14, 0, 0] S1x256x128
  inb_S1x256x32x128_S1x256x1x128_0_0_14_0 : ∀ a, (![0, 0, 14, 0] : Fin 4 → Nat) a + S1x256x1x128.size a ≤ S1x256x32x128.size a
  slices_S32x256x128_o15_0_0_S1x256x128 : S32x256x128.Slices ![15, 0, 0] S1x256x128
  inb_S1x256x32x128_S1x256x1x128_0_0_15_0 : ∀ a, (![0, 0, 15, 0] : Fin 4 → Nat) a + S1x256x1x128.size a ≤ S1x256x32x128.size a
  slices_S16x64x256_o8_0_0_S1x64x256 : S16x64x256.Slices ![8, 0, 0] S1x64x256
  slices_S32x256x128_o16_0_0_S1x256x128 : S32x256x128.Slices ![16, 0, 0] S1x256x128
  inb_S1x256x32x128_S1x256x1x128_0_0_16_0 : ∀ a, (![0, 0, 16, 0] : Fin 4 → Nat) a + S1x256x1x128.size a ≤ S1x256x32x128.size a
  slices_S32x256x128_o17_0_0_S1x256x128 : S32x256x128.Slices ![17, 0, 0] S1x256x128
  inb_S1x256x32x128_S1x256x1x128_0_0_17_0 : ∀ a, (![0, 0, 17, 0] : Fin 4 → Nat) a + S1x256x1x128.size a ≤ S1x256x32x128.size a
  slices_S16x64x256_o9_0_0_S1x64x256 : S16x64x256.Slices ![9, 0, 0] S1x64x256
  slices_S32x256x128_o18_0_0_S1x256x128 : S32x256x128.Slices ![18, 0, 0] S1x256x128
  inb_S1x256x32x128_S1x256x1x128_0_0_18_0 : ∀ a, (![0, 0, 18, 0] : Fin 4 → Nat) a + S1x256x1x128.size a ≤ S1x256x32x128.size a
  slices_S32x256x128_o19_0_0_S1x256x128 : S32x256x128.Slices ![19, 0, 0] S1x256x128
  inb_S1x256x32x128_S1x256x1x128_0_0_19_0 : ∀ a, (![0, 0, 19, 0] : Fin 4 → Nat) a + S1x256x1x128.size a ≤ S1x256x32x128.size a
  slices_S16x64x256_o10_0_0_S1x64x256 : S16x64x256.Slices ![10, 0, 0] S1x64x256
  slices_S32x256x128_o20_0_0_S1x256x128 : S32x256x128.Slices ![20, 0, 0] S1x256x128
  inb_S1x256x32x128_S1x256x1x128_0_0_20_0 : ∀ a, (![0, 0, 20, 0] : Fin 4 → Nat) a + S1x256x1x128.size a ≤ S1x256x32x128.size a
  slices_S32x256x128_o21_0_0_S1x256x128 : S32x256x128.Slices ![21, 0, 0] S1x256x128
  inb_S1x256x32x128_S1x256x1x128_0_0_21_0 : ∀ a, (![0, 0, 21, 0] : Fin 4 → Nat) a + S1x256x1x128.size a ≤ S1x256x32x128.size a
  slices_S16x64x256_o11_0_0_S1x64x256 : S16x64x256.Slices ![11, 0, 0] S1x64x256
  slices_S32x256x128_o22_0_0_S1x256x128 : S32x256x128.Slices ![22, 0, 0] S1x256x128
  inb_S1x256x32x128_S1x256x1x128_0_0_22_0 : ∀ a, (![0, 0, 22, 0] : Fin 4 → Nat) a + S1x256x1x128.size a ≤ S1x256x32x128.size a
  slices_S32x256x128_o23_0_0_S1x256x128 : S32x256x128.Slices ![23, 0, 0] S1x256x128
  inb_S1x256x32x128_S1x256x1x128_0_0_23_0 : ∀ a, (![0, 0, 23, 0] : Fin 4 → Nat) a + S1x256x1x128.size a ≤ S1x256x32x128.size a
  slices_S16x64x256_o12_0_0_S1x64x256 : S16x64x256.Slices ![12, 0, 0] S1x64x256
  slices_S32x256x128_o24_0_0_S1x256x128 : S32x256x128.Slices ![24, 0, 0] S1x256x128
  inb_S1x256x32x128_S1x256x1x128_0_0_24_0 : ∀ a, (![0, 0, 24, 0] : Fin 4 → Nat) a + S1x256x1x128.size a ≤ S1x256x32x128.size a
  slices_S32x256x128_o25_0_0_S1x256x128 : S32x256x128.Slices ![25, 0, 0] S1x256x128
  inb_S1x256x32x128_S1x256x1x128_0_0_25_0 : ∀ a, (![0, 0, 25, 0] : Fin 4 → Nat) a + S1x256x1x128.size a ≤ S1x256x32x128.size a
  slices_S16x64x256_o13_0_0_S1x64x256 : S16x64x256.Slices ![13, 0, 0] S1x64x256
  slices_S32x256x128_o26_0_0_S1x256x128 : S32x256x128.Slices ![26, 0, 0] S1x256x128
  inb_S1x256x32x128_S1x256x1x128_0_0_26_0 : ∀ a, (![0, 0, 26, 0] : Fin 4 → Nat) a + S1x256x1x128.size a ≤ S1x256x32x128.size a
  slices_S32x256x128_o27_0_0_S1x256x128 : S32x256x128.Slices ![27, 0, 0] S1x256x128
  inb_S1x256x32x128_S1x256x1x128_0_0_27_0 : ∀ a, (![0, 0, 27, 0] : Fin 4 → Nat) a + S1x256x1x128.size a ≤ S1x256x32x128.size a
  slices_S16x64x256_o14_0_0_S1x64x256 : S16x64x256.Slices ![14, 0, 0] S1x64x256
  slices_S32x256x128_o28_0_0_S1x256x128 : S32x256x128.Slices ![28, 0, 0] S1x256x128
  inb_S1x256x32x128_S1x256x1x128_0_0_28_0 : ∀ a, (![0, 0, 28, 0] : Fin 4 → Nat) a + S1x256x1x128.size a ≤ S1x256x32x128.size a
  slices_S32x256x128_o29_0_0_S1x256x128 : S32x256x128.Slices ![29, 0, 0] S1x256x128
  inb_S1x256x32x128_S1x256x1x128_0_0_29_0 : ∀ a, (![0, 0, 29, 0] : Fin 4 → Nat) a + S1x256x1x128.size a ≤ S1x256x32x128.size a
  slices_S16x64x256_o15_0_0_S1x64x256 : S16x64x256.Slices ![15, 0, 0] S1x64x256
  slices_S32x256x128_o30_0_0_S1x256x128 : S32x256x128.Slices ![30, 0, 0] S1x256x128
  inb_S1x256x32x128_S1x256x1x128_0_0_30_0 : ∀ a, (![0, 0, 30, 0] : Fin 4 → Nat) a + S1x256x1x128.size a ≤ S1x256x32x128.size a
  slices_S32x256x128_o31_0_0_S1x256x128 : S32x256x128.Slices ![31, 0, 0] S1x256x128
  inb_S1x256x32x128_S1x256x1x128_0_0_31_0 : ∀ a, (![0, 0, 31, 0] : Fin 4 → Nat) a + S1x256x1x128.size a ≤ S1x256x32x128.size a
  dot_S64x256_S64x128_S256x128_0_0_1_1_n_n_wf : DotDims.WF S64x256 S64x128 S256x128 [0] [0] [1] [1] [] []
  dot_S256x256_S256x128_S256x128_1_0_0_1_n_n_wf : DotDims.WF S256x256 S256x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x64x256.size a ≤ S4x64x64x256.size a
  hwx0_0 : ∀ i : grid0.Coords, EltTy.bits .f32 = 32 ∨ (Rect.block (s := S4x64x64x256) S1x16x64x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x32x128.size a ≤ S4x256x128x128.size a
  hwx0_1 : ∀ i : grid0.Coords, EltTy.bits .f32 = 32 ∨ (Rect.block (s := S4x256x128x128) S1x256x32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x32x128.size a ≤ S4x256x128x128.size a
  hwx0_4 : ∀ i : grid0.Coords, EltTy.bits .f32 = 32 ∨ (Rect.block (s := S4x256x128x128) S1x256x32x128.size (cc0_transform_4 i) (hinb0_4 i)).WholeWords (EltTy.packing .f32)

variable [Facts₀]

def dot_S64x256_S64x128_S256x128_0_0_1_1_n_n : DotDims S64x256 S64x128 S256x128 where
  lhsContracting := [0]
  rhsContracting := [0]
  lhsNonContracting := [1]
  rhsNonContracting := [1]
  lhsBatch := []
  rhsBatch := []
  wf := dot_S64x256_S64x128_S256x128_0_0_1_1_n_n_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf

abbrev win0_0 : Pipeline.Window sig grid0 :=
  Pipeline.Window.ofSpec (Memref.whole main_v0) S1x16x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x256x32x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x256x64x64 : Shape := ⟨4, ![4, 256, 64, 64]⟩
abbrev S4x256x128x128 : Shape := ⟨4, ![4, 256, 128, 128]⟩
abbrev S256x256x1x1 : Shape := ⟨4, ![256, 256, 1, 1]⟩
abbrev S256 : Shape := ⟨1, ![256]⟩
abbrev S4x64x64x256 : Shape := ⟨4, ![4, 64, 64, 256]⟩
abbrev S4x64x64x2x256 : Shape := ⟨5, ![4, 64, 64, 2, 256]⟩
abbrev S4x64x128x256 : Shape := ⟨4, ![4, 64, 128, 256]⟩
abbrev S256x128x256 : Shape := ⟨3, ![256, 128, 256]⟩
abbrev S4x128x128x256 : Shape := ⟨4, ![4, 128, 128, 256]⟩
abbrev S256x2x128x256 : Shape := ⟨4, ![256, 2, 128, 256]⟩
abbrev S256x256 : Shape := ⟨2, ![256, 256]⟩
abbrev S1x256 : Shape := ⟨2, ![1, 256]⟩
abbrev S16x128x256 : Shape := ⟨3, ![16, 128, 256]⟩
abbrev S16x1x128x256 : Shape := ⟨4, ![16, 1, 128, 256]⟩
abbrev S2048x256 : Shape := ⟨2, ![2048, 256]⟩

abbrev nBuf : Space → Nat
  | .hbm => 16
  | .vmem => 8
  | .smem => 0
  | _ => 0

abbrev bufTy : (tb : Table) → Fin (tcTables nBuf tb) → BufTy
  | .hbm, ⟨0, _⟩ => ⟨S4x256x64x64, .f32⟩
  | .hbm, ⟨1, _⟩ => ⟨S4x256x128x128, .f32⟩
  | .hbm, ⟨2, _⟩ => ⟨S256x256x1x1, .f32⟩
  | .hbm, ⟨3, _⟩ => ⟨S256, .f32⟩
  | .hbm, ⟨4, _⟩ => ⟨S4x64x64x256, .f32⟩
  | .hbm, ⟨5, _⟩ => ⟨S4x64x64x2x256, .f32⟩
  | .hbm, ⟨6, _⟩ => ⟨S4x64x128x256, .f32⟩
  | .hbm, ⟨7, _⟩ => ⟨S256x128x256, .f32⟩
  | .hbm, ⟨8, _⟩ => ⟨S4x128x128x256, .f32⟩
  | .hbm, ⟨9, _⟩ => ⟨S256x2x128x256, .f32⟩
  | .hbm, ⟨10, _⟩ => ⟨S256x256, .f32⟩
  | .hbm, ⟨11, _⟩ => ⟨S256x256, .f32⟩
  | .hbm, ⟨12, _⟩ => ⟨S1x256, .f32⟩
  | .hbm, ⟨13, _⟩ => ⟨S256x2x128x256, .f32⟩
  | .hbm, ⟨14, _⟩ => ⟨S4x128x128x256, .f32⟩
  | .hbm, ⟨15, _⟩ => ⟨S4x256x128x128, .f32⟩
  | .local _ .vmem, ⟨0, _⟩ => ⟨S16x128x256, .f32⟩
  | .local _ .vmem, ⟨1, _⟩ => ⟨S16x128x256, .f32⟩
  | .local _ .vmem, ⟨2, _⟩ => ⟨S16x1x128x256, .f32⟩
  | .local _ .vmem, ⟨3, _⟩ => ⟨S16x1x128x256, .f32⟩
  | .local _ .vmem, ⟨4, _⟩ => ⟨S256x256, .f32⟩
  | .local _ .vmem, ⟨5, _⟩ => ⟨S1x256, .f32⟩
  | .local _ .vmem, ⟨6, _⟩ => ⟨S16x1x128x256, .f32⟩
  | .local _ .vmem, ⟨7, _⟩ => ⟨S16x1x128x256, .f32⟩
  | _, _ => ⟨S4x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S16x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x1x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S16x1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S4x256x64x64_S4x64x64x256_0_2_3_1 : S4x256x64x64.Transposes [0, 2, 3, 1] S4x64x64x256
  bcast_S4x64x64x256_S4x64x64x2x256_0_1_2_4 : S4x64x64x256.BroadcastsInDim S4x64x64x2x256 (![0, 1, 2, 4] : Fin 4 → Fin S4x64x64x2x256.rank)
  shapeCasts_S4x64x64x2x256_S4x64x128x256 : S4x64x64x2x256.ShapeCasts S4x64x128x256
  shapeCasts_S4x64x128x256_S256x128x256 : S4x64x128x256.ShapeCasts S256x128x256
  transposes_S4x256x128x128_S4x128x128x256_0_2_3_1 : S4x256x128x128.Transposes [0, 2, 3, 1] S4x128x128x256
  shapeCasts_S4x128x128x256_S256x2x128x256 : S4x128x128x256.ShapeCasts S256x2x128x256
  shapeCasts_S256x256x1x1_S256x256 : S256x256x1x1.ShapeCasts S256x256
  transposes_S256x256_S256x256_1_0 : S256x256.Transposes [1, 0] S256x256
  shapeCasts_S256_S1x256 : S256.ShapeCasts S1x256
  inb_S16x1x128x256_S16x1x128x256_0_0_0_0 : ∀ a, (![0, 0, 0, 0] : Fin 4 → Nat) a + S16x1x128x256.size a ≤ S16x1x128x256.size a
  h_S16x1x128x256 : 0 < S16x1x128x256.numel
  shapeCasts_S16x1x128x256_S16x1x128x256 : S16x1x128x256.ShapeCasts S16x1x128x256
  shapeCasts_S16x1x128x256_S2048x256 : S16x1x128x256.ShapeCasts S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S16x128x256_S16x128x256_0_0_0 : ∀ a, (![0, 0, 0] : Fin 3 → Nat) a + S16x128x256.size a ≤ S16x128x256.size a
  h_S16x128x256 : 0 < S16x128x256.numel
  shapeCasts_S16x128x256_S16x128x256 : S16x128x256.ShapeCasts S16x128x256
  shapeCasts_S16x128x256_S2048x256 : S16x128x256.ShapeCasts S2048x256
  shapeCasts_S2048x256_S16x1x128x256 : S2048x256.ShapeCasts S16x1x128x256
  shapeCasts_S256x2x128x256_S4x128x128x256 : S256x2x128x256.ShapeCasts S4x128x128x256
  transposes_S4x128x128x256_S4x256x128x128_0_3_1_2 : S4x128x128x256.Transposes [0, 3, 1, 2] S4x256x128x128
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128x256.size a ≤ S256x128x256.size a
  hwx0_0 : ∀ i : grid0.Coords, EltTy.bits .f32 = 32 ∨ (Rect.block (s := S256x128x256) S16x128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x1x128x256.size a ≤ S256x2x128x256.size a
  hwx0_1 : ∀ i : grid0.Coords, EltTy.bits .f32 = 32 ∨ (Rect.block (s := S256x2x128x256) S16x1x128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x1x128x256.size a ≤ S256x2x128x256.size a
  hwx0_4 : ∀ i : grid0.Coords, EltTy.bits .f32 = 32 ∨ (Rect.block (s := S256x2x128x256) S16x1x128x256.size (cc0_transform_4 i) (hinb0_4 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_v3) S16x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S16x1x128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S16x1x128x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== Proof.Spec.lean ====
/-
  The feature-pyramid block as one function of its four argument arrays.

  For a low-resolution map x[n, c, h, w] (4 × 256 × 64 × 64), a skip map s[n, k, H, W] (4 × 256 × 128 × 128), a
  1×1 convolution weight a[c, k, 0, 0] and a bias b[c], the block's value at (n, c, H, W) is

      (∑ k, s[n, k, H, W] · a[c, k, 0, 0]) + b[c] + x[n, c, H / 2, W / 2] :

  the pointwise convolution of the skip map over its channels, plus the bias, plus the nearest-neighbour
  two-fold upsampling of x. Everything is read on the extended reals.
-/
import Idealize.ShloMosaic.PureOps.Ideal
import Idealize.ShloMosaic.Lib.ValueIdx

noncomputable section

open scoped BigOperators

namespace Cert.Fpn

open Idealize.ShloMosaic Idealize.ShloMosaic.ValueIdx

/-- The four argument shapes and the result's (the skip map's). -/
abbrev SX : Shape := ⟨4, ![4, 256, 64, 64]⟩
abbrev SS : Shape := ⟨4, ![4, 256, 128, 128]⟩
abbrev SA : Shape := ⟨4, ![256, 256, 1, 1]⟩
abbrev SB : Shape := ⟨1, ![256]⟩

/-- The low-resolution coordinate under a high-resolution one: H ↦ H / 2. -/
def half (H : Fin 128) : Fin 64 := ⟨H.val / 2, by have := H.isLt; omega⟩

theorem half_val (H : Fin 128) : (half H).val = H.val / 2 := rfl

/-- The block's value at explicit coordinates. -/
def fpnAt (x : SX.Idx → EReal) (s : SS.Idx → EReal) (a : SA.Idx → EReal) (b : SB.Idx → EReal)
    (n : Fin 4) (c : Fin 256) (H : Fin 128) (W : Fin 128) : EReal :=
  (∑ k : Fin 256, s (ix4 n k H W) * a (ix4 c k (0 : Fin 1) (0 : Fin 1))) + b (ix1 c) + x (ix4 n c (half H) (half W))

/-- The block's result array. -/
def fpn (x : SX.Idx → EReal) (s : SS.Idx → EReal) (a : SA.Idx → EReal) (b : SB.Idx → EReal) : SS.Idx → EReal :=
  fun i => fpnAt x s a b (i 0) (i 1) (i 2) (i 3)

theorem fpn_ix4 (x : SX.Idx → EReal) (s : SS.Idx → EReal) (a : SA.Idx → EReal) (b : SB.Idx → EReal)
    (n : Fin 4) (c : Fin 256) (H : Fin 128) (W : Fin 128) :
    fpn x s a b (ix4 n c H W) = fpnAt x s a b n c H W := rfl

end Cert.Fpn

end
-- ==== Proof.LibPlainMatmul.lean ====
/-
  A plain matrix product into a zero accumulator, read at an entry, at the exact (extended-real) values.

  For an m×k matrix A and a k×n matrix B the product's (a, b) entry is the sum over the contracted coordinate c of
  A(a, c) · B(c, b): the contraction's index set has one axis, of extent k, and is re-indexed by its one coordinate.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the plain product of an m×k by a k×n matrix, accumulated into the zero matrix, is
    `∑ c, A (a, c) * B (c, b)` on the extended reals. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul (DotDims.plain m k n) prec A B (constant ⟨2, ![m, n]⟩ .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

end Idealize.ShloMosaic.ValueIdx

end
-- ==== Proof.KRow.lean ====
/-
  One output row of the kernel's block, read at an entry.

  A grid point of the kernel holds a block of 32 high-resolution rows. Row r of the block is computed from the weight
  matrix A (256 × 256), the bias plane B (256 × 128), the interleave matrix U (64 × 128), the skip block laid out rows
  first, S (32 × 256 × 128), and the low-resolution block X (16 × 64 × 256, channels last):

      row r at (c, w) = (∑ k, A(c, k) · S(r, k, w)) + ((∑ p, X(r / 2, p, c) · U(p, w)) + B(c, w)).

  The first sum is a plain matrix product; the second contracts the ROWS of both operands (the left operand is read
  transposed). Both are taken into a zero accumulator, so on the extended reals each is just the sum.
-/
import proofs.«141254_g2000605795771744_pallasbulk_1000_13_alg».proof.Proof.Gen.KernelIdeal.Frame
import proofs.«141254_g2000605795771744_pallasbulk_1000_13_alg».proof.Proof.LibPlainMatmul
import Idealize.ShloMosaic.Lib.Pipeline.Value
import Idealize.ShloMosaic.Lib.ValueIdx
import Idealize.ShloMosaic.PureOps.Ideal.Laws

noncomputable section

open scoped BigOperators

namespace Cert.KernelIdeal.KValue

open Cert.KernelIdeal Idealize.ShloMosaic Idealize.ShloMosaic.ValueIdx

section AnyInstance
variable {F : FTy → Type} [FloatOps F]

/-- Row `o37 0` of the block as the body computes it: the slice of S at that row against A, plus the slice of X at row
    `o40 0` contracted with U over their rows, plus B; stored as a 1 × 256 × 1 × 128 piece. -/
def rowVal (o37 : Fin 3 → Nat) (h37 : S32x256x128.Slices o37 S1x256x128) (o40 : Fin 3 → Nat) (h40 : S16x64x256.Slices o40 S1x64x256)
    (v1 : FVec F S256x256 .bf16) (v3 : FVec F S256x128 .f32) (v33 : FVec F S64x128 .bf16) (v37 : FVec F S32x256x128 .bf16)
    (v40 : FVec F S16x64x256 .bf16) : FVec F S1x256x1x128 .f32 :=
  shapeCast S1x256x1x128
    (addf (matmul dot_S256x256_S256x128_S256x128_1_0_0_1_n_n none v1
        (shapeCast S256x128 (extractStridedSlice S1x256x128 o37 v37 h37) Gen.shapeCasts_S1x256x128_S256x128)
        (constant S256x128 .f32 0x00000000#32))
      (addf (matmul dot_S64x256_S64x128_S256x128_0_0_1_1_n_n none
          (shapeCast S64x256 (extractStridedSlice S1x64x256 o40 v40 h40) Gen.shapeCasts_S1x64x256_S64x256) v33
          (constant S256x128 .f32 0x00000000#32)) v3))
    Gen.shapeCasts_S256x128_S1x256x1x128

end AnyInstance

/-- The product that contracts the rows of both operands, into the zero matrix: for X of 64 × 256 and U of 64 × 128 the
    (c, w) entry is `∑ p, X (p, c) * U (p, w)`. The contraction's index set has one axis, of extent 64. -/
theorem matmul_rows_zero_apply {φ₁ φ₂ : FTy} (X : FVec Ideal S64x256 φ₁) (Um : FVec Ideal S64x128 φ₂) (c : Fin 256) (w : Fin 128) :
    matmul dot_S64x256_S64x128_S256x128_0_0_1_1_n_n none X Um (constant S256x128 .f32 0x00000000#32) (ix2 c w)
      = ∑ p : Fin 64, X (ix2 p c) * Um (ix2 p w) := by
  show FloatOps.matmul dot_S64x256_S64x128_S256x128_0_0_1_1_n_n none X Um (constant S256x128 .f32 0x00000000#32) (ix2 c w) = _
  rw [Ideal.matmul_constant_zero_apply,
    ← Equiv.sum_comp (contrEquiv1 dot_S64x256_S64x128_S256x128_0_0_1_1_n_n 64 rfl rfl).symm]
  refine Finset.sum_congr rfl fun p _ => ?_
  have hp := contrEquiv1_symm_val dot_S64x256_S64x128_S256x128_0_0_1_1_n_n 64 rfl rfl p
  have el : dot_S64x256_S64x128_S256x128_0_0_1_1_n_n.lhsIdx (ix2 c w)
      ((contrEquiv1 dot_S64x256_S64x128_S256x128_0_0_1_1_n_n 64 rfl rfl).symm p) = ix2 p c := by
    funext ax; apply Fin.ext
    match ax with
    | ⟨0, _⟩ => exact hp
    | ⟨1, _⟩ => rfl
  have er : dot_S64x256_S64x128_S256x128_0_0_1_1_n_n.rhsIdx (ix2 c w)
      ((contrEquiv1 dot_S64x256_S64x128_S256x128_0_0_1_1_n_n 64 rfl rfl).symm p) = ix2 p w := by
    funext ax; apply Fin.ext
    match ax with
    | ⟨0, _⟩ => exact hp
    | ⟨1, _⟩ => rfl
  rw [el, er]

/-- Row r of the block at channel c and column w: the skip row's channels against A's row c, plus the low-resolution row
    r' (the caller's r / 2) against column w of U, plus B. -/
theorem rowVal_apply (r q : Nat) (hr : r < 32) (hq : q < 16)
    (h37 : S32x256x128.Slices ![r, 0, 0] S1x256x128) (h40 : S16x64x256.Slices ![q, 0, 0] S1x64x256)
    (v1 : FVec Ideal S256x256 .bf16) (v3 : FVec Ideal S256x128 .f32) (v33 : FVec Ideal S64x128 .bf16)
    (v37 : FVec Ideal S32x256x128 .bf16) (v40 : FVec Ideal S16x64x256 .bf16) (c : Fin 256) (w : Fin 128) :
    rowVal (F := Ideal) ![r, 0, 0] h37 ![q, 0, 0] h40 v1 v3 v33 v37 v40 (ix4 (0 : Fin 1) c (0 : Fin 1) w)
      = (∑ k : Fin 256, v1 (ix2 c k) * v37 (ix3 (⟨r, hr⟩ : Fin 32) k w))
        + ((∑ p : Fin 64, v40 (ix3 (⟨q, hq⟩ : Fin 16) p c) * v33 (ix2 p w)) + v3 (ix2 c w)) := by
  unfold rowVal
  refine (shapeCast_apply _ _ (ix4 (0 : Fin 1) c (0 : Fin 1) w) (ix2 c w) ?_).trans ?_
  · rw [Shape.rowMajor_val_two, Shape.rowMajor_val_four]
    show c.val * 128 + w.val = ((0 * 256 + c.val) * 1 + 0) * 128 + w.val
    omega
  refine congrArg₂ (· + ·) ?_ (congrArg₂ (· + ·) ?_ rfl)
  · refine (matmul_plain_zero_apply (m := 256) (k := 256) (n := 128) none v1 _ c w).trans ?_
    refine Finset.sum_congr rfl fun k _ => congrArg (v1 (ix2 c k) * ·) ?_
    refine (shapeCast_apply _ _ (ix2 k w) (ix3 (0 : Fin 1) k w) ?_).trans ?_
    · rw [Shape.rowMajor_val_two, Shape.rowMajor_val_three]
      show (0 * 256 + k.val) * 128 + w.val = k.val * 128 + w.val
      omega
    exact extractStridedSlice_apply _ _ _ (ix3 (0 : Fin 1) k w) (ix3 (⟨r, hr⟩ : Fin 32) k w) fun a =>
      match a with
      | ⟨0, _⟩ => by show r = r + 0; omega
      | ⟨1, _⟩ => by show k.val = 0 + k.val; omega
      | ⟨2, _⟩ => by show w.val = 0 + w.val; omega
  · refine (matmul_rows_zero_apply _ v33 c w).trans ?_
    refine Finset.sum_congr rfl fun p _ => congrArg (· * v33 (ix2 p w)) ?_
    refine (shapeCast_apply _ _ (ix2 p c) (ix3 (0 : Fin 1) p c) ?_).trans ?_
    · rw [Shape.rowMajor_val_two, Shape.rowMajor_val_three]
      show (0 * 64 + p.val) * 256 + c.val = p.val * 256 + c.val
      omega
    exact extractStridedSlice_apply _ _ _ (ix3 (0 : Fin 1) p c) (ix3 (⟨q, hq⟩ : Fin 16) p c) fun a =>
      match a with
      | ⟨0, _⟩ => by show q = q + 0; omega
      | ⟨1, _⟩ => by show p.val = 0 + p.val; omega
      | ⟨2, _⟩ => by show c.val = 0 + c.val; omega

end Cert.KernelIdeal.KValue

end
-- ==== Proof.KUpsample.lean ====
/-
  The interleave matrix of the nearest-neighbour width doubling.

  The kernel builds, from two coordinate grids, the 64 × 128 matrix U with U(p, w) = 1 when column w of the doubled row
  comes from column p of the low-resolution row, that is when ⌊w / 2⌋ = p, and 0 otherwise. The floor division is spelt
  with the truncating division and a correction for negative odd dividends; on the coordinates 0 … 127 the correction
  never fires, which is decided coordinate by coordinate.
-/
import proofs.«141254_g2000605795771744_pallasbulk_1000_13_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.KValue

open Cert.KernelIdeal Idealize.ShloMosaic Idealize.ShloMosaic.ValueIdx

/-- The floor of half a 32-bit word as the kernel computes it: the truncated quotient, less one when the signs of
    dividend and divisor differ and the remainder is not zero. -/
def floorHalf (cw : BitVec 32) : BitVec 32 :=
  Scalar.select
    (IntOp.andi
      (IntOp.cmpi CmpIPredicate.ne
        (IntOp.subi (BitVec.setWidth 32 (IntOp.cmpi CmpIPredicate.sgt cw 0#32))
          (BitVec.setWidth 32 (IntOp.cmpi CmpIPredicate.slt cw 0#32)))
        (Scalar.subi (Scalar.extui (Scalar.cmpi CmpIPredicate.sgt 2#32 0#32))
          (Scalar.extui (Scalar.cmpi CmpIPredicate.slt 2#32 0#32))))
      (IntOp.cmpi CmpIPredicate.ne (IntOp.remsi ArithUnit.vector cw 2#32) 0#32))
    (IntOp.subi (IntOp.divsi ArithUnit.vector cw 2#32) 1#32)
    (IntOp.divsi ArithUnit.vector cw 2#32)

/-- On a column coordinate it is the word of ⌊w / 2⌋. -/
theorem floorHalf_spec : ∀ w : Fin 128, floorHalf (BitVec.ofNat 32 w.val) = BitVec.ofNat 32 (w.val / 2) := by
  decide +kernel

/-- Two row coordinates' words compare equal exactly when the coordinates are equal; widened to 32 bits the
    comparison's bit is the word 1 or 0. -/
theorem eqWord_spec : ∀ a p : Fin 64,
    BitVec.setWidth 32 (IntOp.cmpi CmpIPredicate.eq (BitVec.ofNat 32 a.val) (BitVec.ofNat 32 p.val))
      = if a.val = p.val then 1#32 else 0#32 := by
  decide +kernel

/-- U(p, w) is 1 when ⌊w / 2⌋ = p and 0 otherwise: the integer 0 / 1 word read as a real, the change of float format
    the identity. -/
theorem interleave_apply (p : Fin 64) (w : Fin 128) :
    Gen.k0_pay5 (F := Ideal) (ix2 p w) = if w.val / 2 = p.val then (1 : EReal) else 0 := by
  unfold Gen.k0_pay5
  simp only [truncf, sitofp, extui, cmpi, select, subi, divsi, remsi, andi, broadcast]
  rw [iota_single_apply .tc S64x128 32 1 _ (ix2 p w), iota_single_apply .tc S64x128 32 0 _ (ix2 p w)]
  show FloatOps.truncf (F := Ideal) .bf16 _ (FloatOps.sitofp .f32
    (BitVec.setWidth 32 (IntOp.cmpi CmpIPredicate.eq (floorHalf (BitVec.ofNat 32 w.val)) (BitVec.ofNat 32 p.val)))) = _
  rw [floorHalf_spec w]
  have h := eqWord_spec ⟨w.val / 2, by have := w.isLt; omega⟩ p
  rw [h]
  show (((if w.val / 2 = p.val then 1#32 else 0#32 : BitVec 32).toInt : ℝ) : EReal) = _
  by_cases e : w.val / 2 = p.val
  · rw [if_pos e, if_pos e]
    have : (1#32 : BitVec 32).toInt = 1 := by decide
    rw [this]; simp
  · rw [if_neg e, if_neg e]
    have : (0#32 : BitVec 32).toInt = 0 := by decide
    rw [this]; simp

end Cert.KernelIdeal.KValue

end
-- ==== Proof.KBlock.lean ====
/-
  What one grid point of the kernel leaves in its output block, as one function of the point's four input blocks.

  The body stores the block row by row: 32 pieces, one per high-resolution row, each a 1 × 256 × 1 × 128 slab at row r.
  Every piece is the same function of the entry it lands on. With A the weight block (256 × 256), B the bias plane
  (256 × 128), S the skip block (1 × 256 × 32 × 128) and X the low-resolution block (1 × 16 × 64 × 256, channels last),
  the block's entry at (0, c, r, w) is

      (∑ k, A(c, k) · S(0, k, r, w)) + (X(0, r / 2, w / 2, c) + B(c, w)) :

  the interleave matrix has a single 1 in each column, at row ⌊w / 2⌋, so contracting X's row against it picks one entry.
-/
import proofs.«141254_g2000605795771744_pallasbulk_1000_13_alg».proof.Proof.Spec
import proofs.«141254_g2000605795771744_pallasbulk_1000_13_alg».proof.Proof.KRow
import proofs.«141254_g2000605795771744_pallasbulk_1000_13_alg».proof.Proof.KUpsample

noncomputable section

open scoped BigOperators

namespace Cert.KernelIdeal.KValue

open Cert.KernelIdeal Idealize.ShloMosaic Idealize.ShloMosaic.ValueIdx

/-! ## The four loaded blocks as the rows see them -/

section AnyInstance
variable {F : FTy → Type} [FloatOps F]

/-- The weight block as loaded. -/
abbrev wgt (x2 : Vec F S256x256 .bf16) : FVec F S256x256 .bf16 := Gen.k0_pay3 (View.ld x2 Gen.r0_0)
/-- The bias plane as loaded. -/
abbrev bia (x3 : Vec F S256x128 .f32) : FVec F S256x128 .f32 := Gen.k0_pay4 (View.ld x3 Gen.r0_1)
/-- The skip block with its row axis brought to the front. -/
abbrev skp (x1 : Vec F S1x256x32x128 .f32) : FVec F S32x256x128 .bf16 := Gen.k0_pay6 (View.ld x1 Gen.r0_2)
/-- The low-resolution block without its unit axis. -/
abbrev low (x0 : Vec F S1x16x64x256 .f32) : FVec F S16x64x256 .bf16 := Gen.k0_pay7 (View.ld x0 Gen.r0_3)

/-- The 32 pieces the body stores, last stored first: row r through the rectangle at row r. -/
def rows (x0 : Vec F S1x16x64x256 .f32) (x1 : Vec F S1x256x32x128 .f32) (x2 : Vec F S256x256 .bf16) (x3 : Vec F S256x128 .f32) :
    List (View.Piece (Elt F) S1x256x32x128 .f32) :=
  [
    ⟨Gen.r0_35, rowVal ![31, 0, 0] Gen.slices_S32x256x128_o31_0_0_S1x256x128 ![15, 0, 0] Gen.slices_S16x64x256_o15_0_0_S1x64x256 (wgt x2) (bia x3) Gen.k0_pay5 (skp x1) (low x0)⟩,
    ⟨Gen.r0_34, rowVal ![30, 0, 0] Gen.slices_S32x256x128_o30_0_0_S1x256x128 ![15, 0, 0] Gen.slices_S16x64x256_o15_0_0_S1x64x256 (wgt x2) (bia x3) Gen.k0_pay5 (skp x1) (low x0)⟩,
    ⟨Gen.r0_33, rowVal ![29, 0, 0] Gen.slices_S32x256x128_o29_0_0_S1x256x128 ![14, 0, 0] Gen.slices_S16x64x256_o14_0_0_S1x64x256 (wgt x2) (bia x3) Gen.k0_pay5 (skp x1) (low x0)⟩,
    ⟨Gen.r0_32, rowVal ![28, 0, 0] Gen.slices_S32x256x128_o28_0_0_S1x256x128 ![14, 0, 0] Gen.slices_S16x64x256_o14_0_0_S1x64x256 (wgt x2) (bia x3) Gen.k0_pay5 (skp x1) (low x0)⟩,
    ⟨Gen.r0_31, rowVal ![27, 0, 0] Gen.slices_S32x256x128_o27_0_0_S1x256x128 ![13, 0, 0] Gen.slices_S16x64x256_o13_0_0_S1x64x256 (wgt x2) (bia x3) Gen.k0_pay5 (skp x1) (low x0)⟩,
    ⟨Gen.r0_30, rowVal ![26, 0, 0] Gen.slices_S32x256x128_o26_0_0_S1x256x128 ![13, 0, 0] Gen.slices_S16x64x256_o13_0_0_S1x64x256 (wgt x2) (bia x3) Gen.k0_pay5 (skp x1) (low x0)⟩,
    ⟨Gen.r0_29, rowVal ![25, 0, 0] Gen.slices_S32x256x128_o25_0_0_S1x256x128 ![12, 0, 0] Gen.slices_S16x64x256_o12_0_0_S1x64x256 (wgt x2) (bia x3) Gen.k0_pay5 (skp x1) (low x0)⟩,
    ⟨Gen.r0_28, rowVal ![24, 0, 0] Gen.slices_S32x256x128_o24_0_0_S1x256x128 ![12, 0, 0] Gen.slices_S16x64x256_o12_0_0_S1x64x256 (wgt x2) (bia x3) Gen.k0_pay5 (skp x1) (low x0)⟩,
    ⟨Gen.r0_27, rowVal ![23, 0, 0] Gen.slices_S32x256x128_o23_0_0_S1x256x128 ![11, 0, 0] Gen.slices_S16x64x256_o11_0_0_S1x64x256 (wgt x2) (bia x3) Gen.k0_pay5 (skp x1) (low x0)⟩,
    ⟨Gen.r0_26, rowVal ![22, 0, 0] Gen.slices_S32x256x128_o22_0_0_S1x256x128 ![11, 0, 0] Gen.slices_S16x64x256_o11_0_0_S1x64x256 (wgt x2) (bia x3) Gen.k0_pay5 (skp x1) (low x0)⟩,
    ⟨Gen.r0_25, rowVal ![21, 0, 0] Gen.slices_S32x256x128_o21_0_0_S1x256x128 ![10, 0, 0] Gen.slices_S16x64x256_o10_0_0_S1x64x256 (wgt x2) (bia x3) Gen.k0_pay5 (skp x1) (low x0)⟩,
    ⟨Gen.r0_24, rowVal ![20, 0, 0] Gen.slices_S32x256x128_o20_0_0_S1x256x128 ![10, 0, 0] Gen.slices_S16x64x256_o10_0_0_S1x64x256 (wgt x2) (bia x3) Gen.k0_pay5 (skp x1) (low x0)⟩,
    ⟨Gen.r0_23, rowVal ![19, 0, 0] Gen.slices_S32x256x128_o19_0_0_S1x256x128 ![9, 0, 0] Gen.slices_S16x64x256_o9_0_0_S1x64x256 (wgt x2) (bia x3) Gen.k0_pay5 (skp x1) (low x0)⟩,
    ⟨Gen.r0_22, rowVal ![18, 0, 0] Gen.slices_S32x256x128_o18_0_0_S1x256x128 ![9, 0, 0] Gen.slices_S16x64x256_o9_0_0_S1x64x256 (wgt x2) (bia x3) Gen.k0_pay5 (skp x1) (low x0)⟩,
    ⟨Gen.r0_21, rowVal ![17, 0, 0] Gen.slices_S32x256x128_o17_0_0_S1x256x128 ![8, 0, 0] Gen.slices_S16x64x256_o8_0_0_S1x64x256 (wgt x2) (bia x3) Gen.k0_pay5 (skp x1) (low x0)⟩,
    ⟨Gen.r0_20, rowVal ![16, 0, 0] Gen.slices_S32x256x128_o16_0_0_S1x256x128 ![8, 0, 0] Gen.slices_S16x64x256_o8_0_0_S1x64x256 (wgt x2) (bia x3) Gen.k0_pay5 (skp x1) (low x0)⟩,
    ⟨Gen.r0_19, rowVal ![15, 0, 0] Gen.slices_S32x256x128_o15_0_0_S1x256x128 ![7, 0, 0] Gen.slices_S16x64x256_o7_0_0_S1x64x256 (wgt x2) (bia x3) Gen.k0_pay5 (skp x1) (low x0)⟩,
    ⟨Gen.r0_18, rowVal ![14, 0, 0] Gen.slices_S32x256x128_o14_0_0_S1x256x128 ![7, 0, 0] Gen.slices_S16x64x256_o7_0_0_S1x64x256 (wgt x2) (bia x3) Gen.k0_pay5 (skp x1) (low x0)⟩,
    ⟨Gen.r0_17, rowVal ![13, 0, 0] Gen.slices_S32x256x128_o13_0_0_S1x256x128 ![6, 0, 0] Gen.slices_S16x64x256_o6_0_0_S1x64x256 (wgt x2) (bia x3) Gen.k0_pay5 (skp x1) (low x0)⟩,
    ⟨Gen.r0_16, rowVal ![12, 0, 0] Gen.slices_S32x256x128_o12_0_0_S1x256x128 ![6, 0, 0] Gen.slices_S16x64x256_o6_0_0_S1x64x256 (wgt x2) (bia x3) Gen.k0_pay5 (skp x1) (low x0)⟩,
    ⟨Gen.r0_15, rowVal ![11, 0, 0] Gen.slices_S32x256x128_o11_0_0_S1x256x128 ![5, 0, 0] Gen.slices_S16x64x256_o5_0_0_S1x64x256 (wgt x2) (bia x3) Gen.k0_pay5 (skp x1) (low x0)⟩,
    ⟨Gen.r0_14, rowVal ![10, 0, 0] Gen.slices_S32x256x128_o10_0_0_S1x256x128 ![5, 0, 0] Gen.slices_S16x64x256_o5_0_0_S1x64x256 (wgt x2) (bia x3) Gen.k0_pay5 (skp x1) (low x0)⟩,
    ⟨Gen.r0_13, rowVal ![9, 0, 0] Gen.slices_S32x256x128_o9_0_0_S1x256x128 ![4, 0, 0] Gen.slices_S16x64x256_o4_0_0_S1x64x256 (wgt x2) (bia x3) Gen.k0_pay5 (skp x1) (low x0)⟩,
    ⟨Gen.r0_12, rowVal ![8, 0, 0] Gen.slices_S32x256x128_o8_0_0_S1x256x128 ![4, 0, 0] Gen.slices_S16x64x256_o4_0_0_S1x64x256 (wgt x2) (bia x3) Gen.k0_pay5 (skp x1) (low x0)⟩,
    ⟨Gen.r0_11, rowVal ![7, 0, 0] Gen.slices_S32x256x128_o7_0_0_S1x256x128 ![3, 0, 0] Gen.slices_S16x64x256_o3_0_0_S1x64x256 (wgt x2) (bia x3) Gen.k0_pay5 (skp x1) (low x0)⟩,
    ⟨Gen.r0_10, rowVal ![6, 0, 0] Gen.slices_S32x256x128_o6_0_0_S1x256x128 ![3, 0, 0] Gen.slices_S16x64x256_o3_0_0_S1x64x256 (wgt x2) (bia x3) Gen.k0_pay5 (skp x1) (low x0)⟩,
    ⟨Gen.r0_9, rowVal ![5, 0, 0] Gen.slices_S32x256x128_o5_0_0_S1x256x128 ![2, 0, 0] Gen.slices_S16x64x256_o2_0_0_S1x64x256 (wgt x2) (bia x3) Gen.k0_pay5 (skp x1) (low x0)⟩,
    ⟨Gen.r0_8, rowVal ![4, 0, 0] Gen.slices_S32x256x128_o4_0_0_S1x256x128 ![2, 0, 0] Gen.slices_S16x64x256_o2_0_0_S1x64x256 (wgt x2) (bia x3) Gen.k0_pay5 (skp x1) (low x0)⟩,
    ⟨Gen.r0_7, rowVal ![3, 0, 0] Gen.slices_S32x256x128_o3_0_0_S1x256x128 ![1, 0, 0] Gen.slices_S16x64x256_o1_0_0_S1x64x256 (wgt x2) (bia x3) Gen.k0_pay5 (skp x1) (low x0)⟩,
    ⟨Gen.r0_6, rowVal ![2, 0, 0] Gen.slices_S32x256x128_o2_0_0_S1x256x128 ![1, 0, 0] Gen.slices_S16x64x256_o1_0_0_S1x64x256 (wgt x2) (bia x3) Gen.k0_pay5 (skp x1) (low x0)⟩,
    ⟨Gen.r0_5, rowVal ![1, 0, 0] Gen.slices_S32x256x128_o1_0_0_S1x256x128 ![0, 0, 0] Gen.slices_S16x64x256_o0_0_0_S1x64x256 (wgt x2) (bia x3) Gen.k0_pay5 (skp x1) (low x0)⟩,
    ⟨Gen.r0_4, rowVal ![0, 0, 0] Gen.slices_S32x256x128_o0_0_0_S1x256x128 ![0, 0, 0] Gen.slices_S16x64x256_o0_0_0_S1x64x256 (wgt x2) (bia x3) Gen.k0_pay5 (skp x1) (low x0)⟩]

/-- The block after the body is the canon of those pieces: each stored payload is that row's term. -/
theorem out_eq_rows (x0 : Vec F S1x16x64x256 .f32) (x1 : Vec F S1x256x32x128 .f32) (x2 : Vec F S256x256 .bf16) (x3 : Vec F S256x128 .f32) :
    Gen.out0_4 x0 x1 x2 x3 = View.canon (rows x0 x1 x2 x3) := rfl

end AnyInstance

/-! ## The loaded blocks at an entry -/

theorem zero2 : (![0, 0] : Fin 2 → Nat) = fun _ => 0 := by
  funext a; match a with | ⟨0, _⟩ => rfl | ⟨1, _⟩ => rfl

theorem zero4 : (![0, 0, 0, 0] : Fin 4 → Nat) = fun _ => 0 := by
  funext a; match a with | ⟨0, _⟩ => rfl | ⟨1, _⟩ => rfl | ⟨2, _⟩ => rfl | ⟨3, _⟩ => rfl

theorem wgt_apply (x2 : Vec Ideal S256x256 .bf16) (c k : Fin 256) : wgt x2 (ix2 c k) = x2 (ix2 c k) :=
  (shapeCast_apply _ _ (ix2 c k) (ix2 c k) rfl).trans (congrFun (View.ld_unit_zero (S := S256x256) zero2 _ x2) _)

theorem bia_apply (x3 : Vec Ideal S256x128 .f32) (c : Fin 256) (w : Fin 128) : bia x3 (ix2 c w) = x3 (ix2 c w) :=
  (shapeCast_apply _ _ (ix2 c w) (ix2 c w) rfl).trans (congrFun (View.ld_unit_zero (S := S256x128) zero2 _ x3) _)

/-- The transposed skip block at (row, channel, column) is the loaded block at (0, channel, row, column). -/
theorem skp_apply (x1 : Vec Ideal S1x256x32x128 .f32) (h : Fin 32) (k : Fin 256) (w : Fin 128) :
    skp x1 (ix3 h k w) = x1 (ix4 (0 : Fin 1) k h w) := by
  dsimp only [skp, Gen.k0_pay6]
  refine (transpose_apply _ _ _ (ix3 h k w) (ix3 k h w) fun b => match b with
    | ⟨0, _⟩ => rfl | ⟨1, _⟩ => rfl | ⟨2, _⟩ => rfl).trans ?_
  rw [truncf_apply]
  refine (shapeCast_apply _ _ (ix3 k h w) (ix4 (0 : Fin 1) k h w) ?_).trans
    (congrFun (View.ld_unit_zero (S := S1x256x32x128) zero4 _ x1) _)
  rw [Shape.rowMajor_val_three, Shape.rowMajor_val_four]
  show ((0 * 256 + k.val) * 32 + h.val) * 128 + w.val = (k.val * 32 + h.val) * 128 + w.val
  omega

/-- The low-resolution block at (row, column, channel) is the loaded block at (0, row, column, channel). -/
theorem low_apply (x0 : Vec Ideal S1x16x64x256 .f32) (h : Fin 16) (p : Fin 64) (c : Fin 256) :
    low x0 (ix3 h p c) = x0 (ix4 (0 : Fin 1) h p c) := by
  dsimp only [low, Gen.k0_pay7]
  rw [truncf_apply]
  refine (shapeCast_apply _ _ (ix3 h p c) (ix4 (0 : Fin 1) h p c) ?_).trans
    (congrFun (View.ld_unit_zero (S := S1x16x64x256) zero4 _ x0) _)
  rw [Shape.rowMajor_val_three, Shape.rowMajor_val_four]
  show ((0 * 16 + h.val) * 64 + p.val) * 256 + c.val = (h.val * 64 + p.val) * 256 + c.val
  omega

/-! ## The block as one function of its entry -/

/-- The low-resolution row under a block row: r ↦ r / 2. -/
def halfRow (r : Fin 32) : Fin 16 := ⟨r.val / 2, by have := r.isLt; omega⟩

/-- The block's entry at (0, c, r, w) from the four loaded blocks. -/
def blockAt (x0 : Vec Ideal S1x16x64x256 .f32) (x1 : Vec Ideal S1x256x32x128 .f32) (x2 : Vec Ideal S256x256 .bf16)
    (x3 : Vec Ideal S256x128 .f32) (c : Fin 256) (r : Fin 32) (w : Fin 128) : EReal :=
  (∑ k : Fin 256, x2 (ix2 c k) * x1 (ix4 (0 : Fin 1) k r w))
    + (x0 (ix4 (0 : Fin 1) (halfRow r) (Cert.Fpn.half w) c) + x3 (ix2 c w))

/-- The block as a function of its index. -/
def blockFn (x0 : Vec Ideal S1x16x64x256 .f32) (x1 : Vec Ideal S1x256x32x128 .f32) (x2 : Vec Ideal S256x256 .bf16)
    (x3 : Vec Ideal S256x128 .f32) : S1x256x32x128.Idx → EReal :=
  fun y => blockAt x0 x1 x2 x3 (y 1) (y 2) (y 3)

/-- Contracting a row against the interleave matrix's column w picks the row's entry at ⌊w / 2⌋: every other term of the
    sum is a product with 0. -/
theorem sum_interleave (f : Fin 64 → EReal) (w : Fin 128) :
    (∑ p : Fin 64, f p * Gen.k0_pay5 (F := Ideal) (ix2 p w)) = f (Cert.Fpn.half w) := by
  rw [Finset.sum_eq_single (Cert.Fpn.half w)]
  · rw [interleave_apply, if_pos (Cert.Fpn.half_val w).symm, mul_one]
  · intro p _ hp
    rw [interleave_apply, if_neg (fun e => hp (Fin.ext (by rw [Cert.Fpn.half_val]; exact e.symm))), mul_zero]
  · intro h; exact absurd (Finset.mem_univ _) h

/-- Row r lies inside the block, -/
theorem row_inb (r : Nat) (hr : r < 32) :
    ∀ a, (![0, 0, r, 0] : Fin 4 → Nat) a + S1x256x1x128.size a ≤ S1x256x32x128.size a := fun a =>
  match a with
  | ⟨0, _⟩ => by show 0 + 1 ≤ 1; omega
  | ⟨1, _⟩ => by show 0 + 256 ≤ 256; omega
  | ⟨2, _⟩ => by show r + 1 ≤ 32; omega
  | ⟨3, _⟩ => by show 0 + 128 ≤ 128; omega

/-- row r of the transposed skip block is a slice of it, -/
theorem skp_slice (r : Nat) (hr : r < 32) : S32x256x128.Slices ![r, 0, 0] S1x256x128 :=
  ⟨rfl, fun a => match a with
    | ⟨0, _⟩ => by show r + 1 ≤ 32; omega
    | ⟨1, _⟩ => by show 0 + 256 ≤ 256; omega
    | ⟨2, _⟩ => by show 0 + 128 ≤ 128; omega⟩

/-- and row r / 2 of the low-resolution block a slice of that. -/
theorem low_slice (r : Nat) (hr : r < 32) : S16x64x256.Slices ![r / 2, 0, 0] S1x64x256 :=
  ⟨rfl, fun a => match a with
    | ⟨0, _⟩ => by show r / 2 + 1 ≤ 16; omega
    | ⟨1, _⟩ => by show 0 + 64 ≤ 64; omega
    | ⟨2, _⟩ => by show 0 + 256 ≤ 256; omega⟩

/-- Row r's piece agrees with the block function on the entries it lands on. -/
theorem row_piece (r : Nat) (hr : r < 32)
    (x0 : Vec Ideal S1x16x64x256 .f32) (x1 : Vec Ideal S1x256x32x128 .f32) (x2 : Vec Ideal S256x256 .bf16)
    (x3 : Vec Ideal S256x128 .f32) (x : S1x256x1x128.Idx) :
    rowVal (F := Ideal) ![r, 0, 0] (skp_slice r hr) ![r / 2, 0, 0] (low_slice r hr) (wgt x2) (bia x3) Gen.k0_pay5 (skp x1) (low x0) x
      = blockFn x0 x1 x2 x3 ((Rect.unit (s := S1x256x32x128) ![0, 0, r, 0] S1x256x1x128.size (row_inb r hr)).emb x) := by
  obtain ⟨a0, c, a2, w, rfl⟩ : ∃ (a0 : Fin 1) (c : Fin 256) (a2 : Fin 1) (w : Fin 128), x = ix4 a0 c a2 w :=
    ⟨x 0, x 1, x 2, x 3, eq_ix4 x⟩
  obtain rfl : a0 = 0 := Subsingleton.elim _ _
  obtain rfl : a2 = 0 := Subsingleton.elim _ _
  have hq' : r / 2 < 16 := by omega
  have e : (Rect.unit (s := S1x256x32x128) ![0, 0, r, 0] S1x256x1x128.size (row_inb r hr)).emb (ix4 (0 : Fin 1) c (0 : Fin 1) w)
      = ix4 (0 : Fin 1) c (⟨r, hr⟩ : Fin 32) w := by
    funext a; apply Fin.ext
    match a with
    | ⟨0, _⟩ => show 0 + 1 * 0 = 0; rfl
    | ⟨1, _⟩ => show 0 + 1 * c.val = c.val; omega
    | ⟨2, _⟩ => show r + 1 * 0 = r; omega
    | ⟨3, _⟩ => show 0 + 1 * w.val = w.val; omega
  rw [rowVal_apply r (r / 2) hr hq' (skp_slice r hr) (low_slice r hr), e]
  show _ = blockAt x0 x1 x2 x3 c ⟨r, hr⟩ w
  unfold blockAt
  refine congrArg₂ (· + ·) (Finset.sum_congr rfl fun k _ => ?_) (congrArg₂ (· + ·) ?_ (bia_apply x3 c w))
  · rw [wgt_apply, skp_apply]
  · rw [sum_interleave (fun p => low x0 (ix3 (⟨r / 2, hq'⟩ : Fin 16) p c)) w, low_apply]
    rfl

/-- Every piece agrees with the block function, and the pieces cover the block: the block after the body IS the block
    function. -/
theorem out_apply (x0 : Vec Ideal S1x16x64x256 .f32) (x1 : Vec Ideal S1x256x32x128 .f32) (x2 : Vec Ideal S256x256 .bf16)
    (x3 : Vec Ideal S256x128 .f32) : Gen.out0_4 x0 x1 x2 x3 = blockFn x0 x1 x2 x3 := by
  funext y
  rw [out_eq_rows]
  refine View.canon_apply_of_pieces (blockFn x0 x1 x2 x3) (rows x0 x1 x2 x3) ?_ y
    (Gen.cover0_4 _ _ _ _ _ _ _ _ _ _ _ _ _ _ _ _ _ _ _ _ _ _ _ _ _ _ _ _ _ _ _ _ y)
  intro p hp
  simp only [rows, List.mem_cons, List.mem_nil_iff, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact fun x => row_piece 31 (by decide) x0 x1 x2 x3 x
  · exact fun x => row_piece 30 (by decide) x0 x1 x2 x3 x
  · exact fun x => row_piece 29 (by decide) x0 x1 x2 x3 x
  · exact fun x => row_piece 28 (by decide) x0 x1 x2 x3 x
  · exact fun x => row_piece 27 (by decide) x0 x1 x2 x3 x
  · exact fun x => row_piece 26 (by decide) x0 x1 x2 x3 x
  · exact fun x => row_piece 25 (by decide) x0 x1 x2 x3 x
  · exact fun x => row_piece 24 (by decide) x0 x1 x2 x3 x
  · exact fun x => row_piece 23 (by decide) x0 x1 x2 x3 x
  · exact fun x => row_piece 22 (by decide) x0 x1 x2 x3 x
  · exact fun x => row_piece 21 (by decide) x0 x1 x2 x3 x
  · exact fun x => row_piece 20 (by decide) x0 x1 x2 x3 x
  · exact fun x => row_piece 19 (by decide) x0 x1 x2 x3 x
  · exact fun x => row_piece 18 (by decide) x0 x1 x2 x3 x
  · exact fun x => row_piece 17 (by decide) x0 x1 x2 x3 x
  · exact fun x => row_piece 16 (by decide) x0 x1 x2 x3 x
  · exact fun x => row_piece 15 (by decide) x0 x1 x2 x3 x
  · exact fun x => row_piece 14 (by decide) x0 x1 x2 x3 x
  · exact fun x => row_piece 13 (by decide) x0 x1 x2 x3 x
  · exact fun x => row_piece 12 (by decide) x0 x1 x2 x3 x
  · exact fun x => row_piece 11 (by decide) x0 x1 x2 x3 x
  · exact fun x => row_piece 10 (by decide) x0 x1 x2 x3 x
  · exact fun x => row_piece 9 (by decide) x0 x1 x2 x3 x
  · exact fun x => row_piece 8 (by decide) x0 x1 x2 x3 x
  · exact fun x => row_piece 7 (by decide) x0 x1 x2 x3 x
  · exact fun x => row_piece 6 (by decide) x0 x1 x2 x3 x
  · exact fun x => row_piece 5 (by decide) x0 x1 x2 x3 x
  · exact fun x => row_piece 4 (by decide) x0 x1 x2 x3 x
  · exact fun x => row_piece 3 (by decide) x0 x1 x2 x3 x
  · exact fun x => row_piece 2 (by decide) x0 x1 x2 x3 x
  · exact fun x => row_piece 1 (by decide) x0 x1 x2 x3 x
  · exact fun x => row_piece 0 (by decide) x0 x1 x2 x3 x

end Cert.KernelIdeal.KValue

end
-- ==== Proof.KArray.lean ====
/-
  From the kernel's blocks to its result array.

  The grid has 4 × 4 points; point (n, b) works on batch n and on the 32 high-resolution rows 32·b … 32·b + 31: its
  skip and output blocks are rows 32·b … of batch n (all 256 channels, all 128 columns), its low-resolution block is
  rows 16·b … 16·b + 15 of batch n of the channels-last copy of x, and the weight matrix and the bias plane are whole.
  The channels-last copy is x transposed, the weight matrix is the 1×1 weight without its unit axes, the bias plane
  repeats the bias along the columns. So what point (n, b) writes back is block (n, b) of ONE function of the four
  arguments, the feature-pyramid block of the specification; the 16 blocks tile the result.
-/
import proofs.«141254_g2000605795771744_pallasbulk_1000_13_alg».proof.Proof.Gen.KernelIdeal.Value
import proofs.«141254_g2000605795771744_pallasbulk_1000_13_alg».proof.Proof.KBlock
import Idealize.ShloMosaic.Lib.StableHlo.Run

noncomputable section

open scoped BigOperators

namespace Cert.KernelIdeal.KValue

open Cert.KernelIdeal Cert.KernelIdeal.Gen Idealize.ShloMosaic Idealize.ShloMosaic.ValueIdx Idealize.ShloMosaic.TcCoe
  Idealize.SL.Sem
open Idealize.ShloMosaic.Pipeline (Dat)

variable (m : (ℓ : Loc nD τ sig) → Buf (Elt Ideal) ℓ) (ρ : Dev nD → PrngReg)

/-! ## The arrays the region finds, at an entry -/

/-- The channels-last copy of x at (n, h, p, channel) is x at (n, channel, h, p). -/
theorem lowArr_apply (c : Dev nD) (n : Fin 4) (h p : Fin 64) (ch : Fin 256) :
    (V m c main_v0 : S4x64x64x256.Idx → EReal) (ix4 n h p ch)
      = (m ((c.tc : Thread nD τ).loc main_arg0) : S4x256x64x64.Idx → EReal) (ix4 n ch h p) := by
  have e : (V m c main_v0 : S4x64x64x256.Idx → EReal)
      = transpose S4x64x64x256 [0, 2, 3, 1] (m ((c.tc : Thread nD τ).loc main_arg0) : FVec Ideal S4x256x64x64 .f32)
          Gen.transposes_S4x256x64x64_S4x64x64x256_0_2_3_1 := by
    dsimp only [Gen.V, Gen.hostOps0]; after_results
  rw [e]
  exact transpose_apply _ _ _ (ix4 n h p ch) (ix4 n ch h p) fun b => match b with
    | ⟨0, _⟩ => rfl | ⟨1, _⟩ => rfl | ⟨2, _⟩ => rfl | ⟨3, _⟩ => rfl

/-- The weight matrix at (c, k) is the 1×1 weight at (c, k, 0, 0); its rounding to the narrower format is the identity. -/
theorem wgtArr_apply (c : Dev nD) (cc k : Fin 256) :
    (V m c main_v2 : S256x256.Idx → EReal) (ix2 cc k)
      = (m ((c.tc : Thread nD τ).loc main_arg2) : S256x256x1x1.Idx → EReal) (ix4 cc k (0 : Fin 1) (0 : Fin 1)) := by
  have e : (V m c main_v2 : S256x256.Idx → EReal)
      = (truncf .bf16 (shapeCast S256x256 (m ((c.tc : Thread nD τ).loc main_arg2) : FVec Ideal S256x256x1x1 .f32)
          Gen.shapeCasts_S256x256x1x1_S256x256) Gen.bitsLt_bf16_f32 : FVec Ideal S256x256 .bf16) := by
    dsimp only [Gen.V, Gen.hostOps0]; after_results; rfl
  rw [e, truncf_apply]
  refine shapeCast_apply _ _ (ix2 cc k) (ix4 cc k (0 : Fin 1) (0 : Fin 1)) ?_
  rw [Shape.rowMajor_val_two, Shape.rowMajor_val_four]
  show ((cc.val * 256 + k.val) * 1 + 0) * 1 + 0 = cc.val * 256 + k.val
  omega

/-- The bias plane at (c, w) is the bias at c. -/
theorem biaArr_apply (c : Dev nD) (cc : Fin 256) (w : Fin 128) :
    (V m c main_v4 : S256x128.Idx → EReal) (ix2 cc w)
      = (m ((c.tc : Thread nD τ).loc main_arg3) : S256.Idx → EReal) (ix1 cc) := by
  have e : (V m c main_v4 : S256x128.Idx → EReal)
      = broadcastInDim S256x128 ![0, 1] Gen.bcast_S256x1_S256x128_0_1
          (broadcastInDim S256x1 ![0] Gen.bcast_S256_S256x1_0 (m ((c.tc : Thread nD τ).loc main_arg3) : FVec Ideal S256 .f32)) := by
    dsimp only [Gen.V, Gen.hostOps0]; after_results
  rw [e]
  refine (broadcastInDim_apply _ _ _ (ix2 cc w) (ix2 cc (0 : Fin 1)) fun a => match a with
    | ⟨0, _⟩ => rfl | ⟨1, _⟩ => rfl).trans ?_
  exact broadcastInDim_apply _ _ _ (ix2 cc (0 : Fin 1)) (ix1 cc) fun a => match a with
    | ⟨0, _⟩ => rfl

/-! ## One block against the specification, over variables -/

/-- If the four loaded blocks are the blocks of batch n and row-block b of the arrays described above, the block function
    at (c, r, w) is the specification at (n, c, 32·b + r, w): the two sums differ in the order of their factors, the
    three summands in their grouping, and ⌊(32·b + r) / 2⌋ = 16·b + ⌊r / 2⌋. -/
theorem blockAt_eq (x0 : Vec Ideal S1x16x64x256 .f32) (x1 : Vec Ideal S1x256x32x128 .f32) (x2 : Vec Ideal S256x256 .bf16)
    (x3 : Vec Ideal S256x128 .f32)
    (X : Cert.Fpn.SX.Idx → EReal) (S : Cert.Fpn.SS.Idx → EReal) (A : Cert.Fpn.SA.Idx → EReal) (B : Cert.Fpn.SB.Idx → EReal)
    (n b : Fin 4)
    (h0 : ∀ (hl : Fin 16) (p : Fin 64) (ch : Fin 256),
      x0 (ix4 (0 : Fin 1) hl p ch) = X (ix4 n ch (⟨16 * b.val + hl.val, by omega⟩ : Fin 64) p))
    (h1 : ∀ (k : Fin 256) (r : Fin 32) (w : Fin 128),
      x1 (ix4 (0 : Fin 1) k r w) = S (ix4 n k (⟨32 * b.val + r.val, by omega⟩ : Fin 128) w))
    (h2 : ∀ cc k : Fin 256, x2 (ix2 cc k) = A (ix4 cc k (0 : Fin 1) (0 : Fin 1)))
    (h3 : ∀ (cc : Fin 256) (w : Fin 128), x3 (ix2 cc w) = B (ix1 cc))
    (cc : Fin 256) (r : Fin 32) (w : Fin 128) :
    blockAt x0 x1 x2 x3 cc r w
      = Cert.Fpn.fpnAt X S A B n cc (⟨32 * b.val + r.val, by omega⟩ : Fin 128) w := by
  unfold blockAt Cert.Fpn.fpnAt
  rw [h0, h3]
  have hs : (∑ k : Fin 256, x2 (ix2 cc k) * x1 (ix4 (0 : Fin 1) k r w))
      = ∑ k : Fin 256, S (ix4 n k (⟨32 * b.val + r.val, by omega⟩ : Fin 128) w) * A (ix4 cc k (0 : Fin 1) (0 : Fin 1)) :=
    Finset.sum_congr rfl fun k _ => by rw [h2, h1, mul_comm]
  rw [hs]
  have hh : (⟨16 * b.val + (halfRow r).val, by have := (halfRow r).isLt; omega⟩ : Fin 64)
      = Cert.Fpn.half (⟨32 * b.val + r.val, by omega⟩ : Fin 128) :=
    Fin.ext (by show 16 * b.val + r.val / 2 = (32 * b.val + r.val) / 2; omega)
  rw [hh, add_comm (X _) (B _), add_assoc]

/-! ## The printed index maps, decided over the 16 points -/

theorem idx_facts : ∀ t : Fin cfg0.N,
    win0_0.index t (0 : Fin 4) = win0_4.index t (0 : Fin 4) ∧ win0_0.index t (1 : Fin 4) = win0_4.index t (2 : Fin 4)
    ∧ win0_0.index t (2 : Fin 4) = 0 ∧ win0_0.index t (3 : Fin 4) = 0
    ∧ win0_1.index t (0 : Fin 4) = win0_4.index t (0 : Fin 4) ∧ win0_1.index t (1 : Fin 4) = 0
    ∧ win0_1.index t (2 : Fin 4) = win0_4.index t (2 : Fin 4) ∧ win0_1.index t (3 : Fin 4) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 4) < 4 ∧ win0_4.index t (1 : Fin 4) = 0
    ∧ win0_4.index t (2 : Fin 4) < 4 ∧ win0_4.index t (3 : Fin 4) = 0 :=
  (by decide +kernel : ∀ t : Fin grid0.N, _)

/-- Every (batch, row-block) pair is some point's. -/
theorem idx_onto : ∀ q0 q2 : Fin 4, ∃ t : Fin cfg0.N, win0_4.index t = ![q0.val, 0, q2.val, 0] :=
  (by decide +kernel : ∀ q0 q2 : Fin 4, ∃ t : Fin grid0.N, win0_4.index t = ![q0.val, 0, q2.val, 0])

/-! ## What a point writes back -/

/-- Point t writes back block t of the specification's array: each loaded block is the block of its array at the
    point's batch and row-block, an element's coordinate in the array being the block index times the block's extent
    plus its coordinate inside the block. -/
theorem flushed_eq (c : Dev nD) (t : Fin cfg0.N) :
    (dats m 0 c).flushed 4 t = ((cfg0.win 4).blk t).view.read (Elt Ideal)
      (Cert.Fpn.fpn (m ((c.tc : Thread nD τ).loc main_arg0)) (m ((c.tc : Thread nD τ).loc main_arg1))
        (m ((c.tc : Thread nD τ).loc main_arg2)) (m ((c.tc : Thread nD τ).loc main_arg3))) := by
  rw [Cert.KernelIdeal.Value.flushed4, out_apply]
  obtain ⟨e00, e01, e02, e03, e10, e11, e12, e13, e20, e21, e30, e31, l0, z1, l2, z3⟩ := idx_facts t
  funext j
  have hj0 : (j 0).val < 1 := (j 0).isLt
  have hj1 : (j 1).val < 256 := (j 1).isLt
  have hj2 : (j 2).val < 32 := (j 2).isLt
  have hj3 : (j 3).val < 128 := (j 3).isLt
  show blockFn (iblk m c 0 t) (iblk m c 1 t) (iblk m c 2 t) (iblk m c 3 t) _
    = Cert.Fpn.fpn _ _ _ _ (((cfg0.win 4).blk t).view.emb j)
  refine (blockAt_eq (iblk m c 0 t) (iblk m c 1 t) (iblk m c 2 t) (iblk m c 3 t)
    (m ((c.tc : Thread nD τ).loc main_arg0)) (m ((c.tc : Thread nD τ).loc main_arg1))
    (m ((c.tc : Thread nD τ).loc main_arg2)) (m ((c.tc : Thread nD τ).loc main_arg3))
    (⟨win0_4.index t (0 : Fin 4), l0⟩ : Fin 4) (⟨win0_4.index t (2 : Fin 4), l2⟩ : Fin 4) ?_ ?_ ?_ ?_ _ _ _).trans ?_
  · intro hl p ch
    show V m c main_v0 (((cfg0.win 0).blk t).view.emb (ix4 (0 : Fin 1) hl p ch)) = _
    have ee : ((cfg0.win 0).blk t).view.emb (ix4 (0 : Fin 1) hl p ch)
        = ix4 (⟨win0_4.index t (0 : Fin 4), l0⟩ : Fin 4) (⟨16 * win0_4.index t (2 : Fin 4) + hl.val, by omega⟩ : Fin 64) p ch := by
      funext a; apply Fin.ext
      match a with
      | ⟨0, _⟩ => show win0_0.index t (0 : Fin 4) * 1 + 1 * 0 = win0_4.index t (0 : Fin 4); omega
      | ⟨1, _⟩ => show win0_0.index t (1 : Fin 4) * 16 + 1 * hl.val = 16 * win0_4.index t (2 : Fin 4) + hl.val; omega
      | ⟨2, _⟩ => show win0_0.index t (2 : Fin 4) * 64 + 1 * p.val = p.val; omega
      | ⟨3, _⟩ => show win0_0.index t (3 : Fin 4) * 256 + 1 * ch.val = ch.val; omega
    rw [ee]
    exact lowArr_apply m c _ _ _ _
  · intro k r w
    show V m c main_arg1 (((cfg0.win 1).blk t).view.emb (ix4 (0 : Fin 1) k r w)) = _
    have ee : ((cfg0.win 1).blk t).view.emb (ix4 (0 : Fin 1) k r w)
        = ix4 (⟨win0_4.index t (0 : Fin 4), l0⟩ : Fin 4) k (⟨32 * win0_4.index t (2 : Fin 4) + r.val, by omega⟩ : Fin 128) w := by
      funext a; apply Fin.ext
      match a with
      | ⟨0, _⟩ => show win0_1.index t (0 : Fin 4) * 1 + 1 * 0 = win0_4.index t (0 : Fin 4); omega
      | ⟨1, _⟩ => show win0_1.index t (1 : Fin 4) * 256 + 1 * k.val = k.val; omega
      | ⟨2, _⟩ => show win0_1.index t (2 : Fin 4) * 32 + 1 * r.val = 32 * win0_4.index t (2 : Fin 4) + r.val; omega
      | ⟨3, _⟩ => show win0_1.index t (3 : Fin 4) * 128 + 1 * w.val = w.val; omega
    rw [ee, V_main_arg1]
  · intro cc k
    show V m c main_v2 (((cfg0.win 2).blk t).view.emb (ix2 cc k)) = _
    have ee : ((cfg0.win 2).blk t).view.emb (ix2 cc k) = ix2 cc k := by
      funext a; apply Fin.ext
      match a with
      | ⟨0, _⟩ => show win0_2.index t (0 : Fin 2) * 256 + 1 * cc.val = cc.val; omega
      | ⟨1, _⟩ => show win0_2.index t (1 : Fin 2) * 256 + 1 * k.val = k.val; omega
    rw [ee]
    exact wgtArr_apply m c _ _
  · intro cc w
    show V m c main_v4 (((cfg0.win 3).blk t).view.emb (ix2 cc w)) = _
    have ee : ((cfg0.win 3).blk t).view.emb (ix2 cc w) = ix2 cc w := by
      funext a; apply Fin.ext
      match a with
      | ⟨0, _⟩ => show win0_3.index t (0 : Fin 2) * 256 + 1 * cc.val = cc.val; omega
      | ⟨1, _⟩ => show win0_3.index t (1 : Fin 2) * 128 + 1 * w.val = w.val; omega
    rw [ee]
    exact biaArr_apply m c _ _
  · have c0 : (⟨win0_4.index t (0 : Fin 4), l0⟩ : Fin 4) = (((cfg0.win 4).blk t).view.emb j) 0 :=
      Fin.ext (by show win0_4.index t (0 : Fin 4) = win0_4.index t (0 : Fin 4) * 1 + 1 * (j 0).val; omega)
    have c1 : (⟨(j 1).val, hj1⟩ : Fin 256) = (((cfg0.win 4).blk t).view.emb j) 1 :=
      Fin.ext (by show (j 1).val = win0_4.index t (1 : Fin 4) * 256 + 1 * (j 1).val; omega)
    have c2 : (⟨32 * win0_4.index t (2 : Fin 4) + (j 2).val, by omega⟩ : Fin 128) = (((cfg0.win 4).blk t).view.emb j) 2 :=
      Fin.ext (by show 32 * win0_4.index t (2 : Fin 4) + (j 2).val = win0_4.index t (2 : Fin 4) * 32 + 1 * (j 2).val; omega)
    have c3 : (⟨(j 3).val, hj3⟩ : Fin 128) = (((cfg0.win 4).blk t).view.emb j) 3 :=
      Fin.ext (by show (j 3).val = win0_4.index t (3 : Fin 4) * 128 + 1 * (j 3).val; omega)
    exact congr (congr (congr (congrArg (Cert.Fpn.fpnAt _ _ _ _) c0) c1) c2) c3

/-! ## The blocks tile the result -/

/-- An index of the result is in point t's block iff each coordinate is in the block's range on its axis. -/
theorem mem_blk (t : Fin cfg0.N) (i : S4x256x128x128.Idx) :
    i ∈ ((cfg0.win 4).blk t).view.set ↔ ∀ a : Fin 4, win0_4.index t a * S1x256x32x128.size a ≤ (i a).val
      ∧ (i a).val < win0_4.index t a * S1x256x32x128.size a + S1x256x32x128.size a := by
  show i ∈ ((View.whole main_v5).slice (win0_4.rect t)).set ↔ _
  rw [View.set_slice_whole, Rect.mem_set_unit]
  exact Iff.rfl

/-- Every index is in the block of the point at its batch and at its row divided by 32. -/
theorem cover (i : S4x256x128x128.Idx) :
    ∃ t : Fin cfg0.N, (cfg0.win 4).flush t = true ∧ i ∈ ((cfg0.win 4).blk t).view.set := by
  have hi0 : (i 0).val < 4 := (i 0).isLt
  have hi1 : (i 1).val < 256 := (i 1).isLt
  have hi2 : (i 2).val < 128 := (i 2).isLt
  have hi3 : (i 3).val < 128 := (i 3).isLt
  obtain ⟨t, ht⟩ := idx_onto ⟨(i 0).val, hi0⟩ ⟨(i 2).val / 32, by omega⟩
  have q0 : win0_4.index t (0 : Fin 4) = (i 0).val := congrFun ht 0
  have q1 : win0_4.index t (1 : Fin 4) = 0 := congrFun ht 1
  have q2 : win0_4.index t (2 : Fin 4) = (i 2).val / 32 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 256 ≤ (i 1).val ∧ (i 1).val < win0_4.index t (1 : Fin 4) * 256 + 256; omega
  | ⟨2, _⟩ => show win0_4.index t (2 : Fin 4) * 32 ≤ (i 2).val ∧ (i 2).val < win0_4.index t (2 : Fin 4) * 32 + 32; omega
  | ⟨3, _⟩ => show win0_4.index t (3 : Fin 4) * 128 ≤ (i 3).val ∧ (i 3).val < win0_4.index t (3 : Fin 4) * 128 + 128; omega

/-- The result array after the run is the specification's array of the four arguments. -/
theorem final (c : Dev nD) :
    (dats m 0 c).arrAt 4 cfg0.N
      = Cert.Fpn.fpn (m ((c.tc : Thread nD τ).loc main_arg0)) (m ((c.tc : Thread nD τ).loc main_arg1))
          (m ((c.tc : Thread nD τ).loc main_arg2)) (m ((c.tc : Thread nD τ).loc main_arg3)) :=
  (dats m 0 c).arrAt_eq_of_cover 4 _ (fun t _ => flushed_eq m c t) cover

/-- The kernel's run: it terminates without a fault, its result is the specification's array and its arguments are as
    launched. -/
theorem run : θ_run defs (onTc (τ := τ) (main (F := Ideal))) ⟨m, fun _ => 0, ρ⟩ fun r => ∀ c : Dev nD,
      r.2.mem ((c.tc : Thread nD τ).loc main_v5)
        = Cert.Fpn.fpn (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (final m c), (h c).2⟩)
    (Cert.KernelIdeal.Value.run_blocks m ρ)

end Cert.KernelIdeal.KValue

end
-- ==== Proof.RefLayout.lean ====
/-
  The re-arrangements of the feature-pyramid block's arrays, each read at one entry.

  Around the tiled computation the block only moves entries: the low-resolution map x[n, c, h, w] is brought to
  channels-last order, every column is doubled, and rows are numbered R = 64·n + h; the skip map s[n, k, H, W] is
  brought to channels-last order and its rows 128·n + H are split as 2·R + p; the 1×1 weight a[c, k, 0, 0] loses
  its unit axes and is transposed; the bias becomes a one-row matrix; and the result is brought back from rows
  (R, p) to (n, H) and to channels-first order. Inside a tile, sixteen row groups of 128 columns are laid out as
  2048 rows, row 128·r + W. Each lemma says which single entry of the operand an entry of the re-arranged array is.
-/
import proofs.«141254_g2000605795771744_pallasbulk_1000_13_alg».proof.ReferenceIdeal
import Idealize.ShloMosaic.Lib.ValueLayout

namespace Cert.ReferenceIdeal.RefValue

open Idealize.ShloMosaic Idealize.ShloMosaic.ValueIdx Cert.ReferenceIdeal

variable {α : Type}

/-! ## Before the tiled computation -/

/-- The low-resolution map, channels last, columns doubled, rows numbered R = 64·n + h: entry (R, W, c) is
    x[n, c, h, W / 2]. The doubled column W is column W / 2 of the original, copy W % 2. -/
theorem upsampled_apply (x : S4x256x64x64.Idx → α)
    (ht : S4x256x64x64.Transposes [0, 2, 3, 1] S4x64x64x256)
    (hb : S4x64x64x256.BroadcastsInDim S4x64x64x2x256 (![0, 1, 2, 4] : Fin 4 → Fin S4x64x64x2x256.rank))
    (h1 : S4x64x64x2x256.ShapeCasts S4x64x128x256) (h2 : S4x64x128x256.ShapeCasts S256x128x256)
    (R : Fin 256) (W : Fin 128) (c : Fin 256) (n : Fin 4) (h : Fin 64) (w : Fin 64)
    (hR : R.val = 64 * n.val + h.val) (hW : w.val = W.val / 2) :
    shapeCast S256x128x256 (shapeCast S4x64x128x256
        (broadcastInDim S4x64x64x2x256 ![0, 1, 2, 4] hb (transpose S4x64x64x256 [0, 2, 3, 1] x ht)) h1) h2 (ix3 R W c)
      = x (ix4 n c h w) := by
  have hq : W.val % 2 < 2 := Nat.mod_lt _ (by decide)
  -- rows R of the [256, 128, 256] array are the pairs (n, h) of the [4, 64, 128, 256] one
  refine (shapeCast_apply _ h2 (ix3 R W c) (ix4 n h W c) ?_).trans ?_
  · rw [Shape.rowMajor_val_four, Shape.rowMajor_val_three]
    show ((n.val * 64 + h.val) * 128 + W.val) * 256 + c.val = (R.val * 128 + W.val) * 256 + c.val
    omega
  -- column W of the doubled row is (column W / 2, copy W % 2)
  refine (shapeCast_apply _ h1 (ix4 n h W c) (ix5 n h w (⟨W.val % 2, hq⟩ : Fin 2) c) ?_).trans ?_
  · rw [Shape.rowMajor_val_five, Shape.rowMajor_val_four]
    show (((n.val * 64 + h.val) * 64 + w.val) * 2 + W.val % 2) * 256 + c.val = ((n.val * 64 + h.val) * 128 + W.val) * 256 + c.val
    omega
  -- both copies are the same entry
  refine (broadcastInDim_apply _ hb _ (ix5 n h w (⟨W.val % 2, hq⟩ : Fin 2) c) (ix4 n h w c) fun a => ?_).trans ?_
  · match a with
    | ⟨0, _⟩ => rfl
    | ⟨1, _⟩ => rfl
    | ⟨2, _⟩ => rfl
    | ⟨3, _⟩ => rfl
  -- channels last to channels first
  exact transpose_apply _ x ht (ix4 n h w c) (ix4 n c h w) fun b =>
    match b with
    | ⟨0, _⟩ => rfl
    | ⟨1, _⟩ => rfl
    | ⟨2, _⟩ => rfl
    | ⟨3, _⟩ => rfl

/-- The skip map, channels last, its rows 128·n + H split as 2·R + p: entry (R, p, W, k) is s[n, k, H, W]. -/
theorem skipRows_apply (s : S4x256x128x128.Idx → α)
    (ht : S4x256x128x128.Transposes [0, 2, 3, 1] S4x128x128x256) (h1 : S4x128x128x256.ShapeCasts S256x2x128x256)
    (R : Fin 256) (p : Fin 2) (W : Fin 128) (k : Fin 256) (n : Fin 4) (H : Fin 128)
    (hR : 128 * n.val + H.val = 2 * R.val + p.val) :
    shapeCast S256x2x128x256 (transpose S4x128x128x256 [0, 2, 3, 1] s ht) h1 (ix4 R p W k) = s (ix4 n k H W) := by
  refine (shapeCast_apply _ h1 (ix4 R p W k) (ix4 n H W k) ?_).trans ?_
  · rw [Shape.rowMajor_val_four, Shape.rowMajor_val_four]
    show ((n.val * 128 + H.val) * 128 + W.val) * 256 + k.val = ((R.val * 2 + p.val) * 128 + W.val) * 256 + k.val
    omega
  exact transpose_apply _ s ht (ix4 n H W k) (ix4 n k H W) fun b =>
    match b with
    | ⟨0, _⟩ => rfl
    | ⟨1, _⟩ => rfl
    | ⟨2, _⟩ => rfl
    | ⟨3, _⟩ => rfl

/-- The 1×1 weight without its unit axes, transposed: entry (k, c) is a[c, k, 0, 0]. -/
theorem weightT_apply (a : S256x256x1x1.Idx → α)
    (h1 : S256x256x1x1.ShapeCasts S256x256) (ht : S256x256.Transposes [1, 0] S256x256) (k : Fin 256) (c : Fin 256) :
    transpose S256x256 [1, 0] (shapeCast S256x256 a h1) ht (ix2 k c) = a (ix4 c k (0 : Fin 1) (0 : Fin 1)) := by
  refine (transpose_ix2_apply _ ht k c).trans ?_
  refine shapeCast_apply a h1 (ix2 c k) (ix4 c k (0 : Fin 1) (0 : Fin 1)) ?_
  rw [Shape.rowMajor_val_four, Shape.rowMajor_val_two]
  show ((c.val * 256 + k.val) * 1 + 0) * 1 + 0 = c.val * 256 + k.val
  omega

/-- The bias as a one-row matrix: entry (0, c) is b[c]. -/
theorem biasRow_apply (b : S256.Idx → α) (h1 : S256.ShapeCasts S1x256) (u : Fin 1) (c : Fin 256) :
    shapeCast S1x256 b h1 (ix2 u c) = b (ix1 c) :=
  shapeCast_a_1a_apply b h1 u c

/-! ## After the tiled computation -/

/-- The result brought back: rows (R, p) regrouped as (n, H) with 128·n + H = 2·R + p, then channels first. Entry
    (n, c, H, W) of the final array is entry (R, p, W, c) of the tiled computation's. -/
theorem regrouped_apply (o : S256x2x128x256.Idx → α)
    (h1 : S256x2x128x256.ShapeCasts S4x128x128x256) (ht : S4x128x128x256.Transposes [0, 3, 1, 2] S4x256x128x128)
    (n : Fin 4) (c : Fin 256) (H : Fin 128) (W : Fin 128) (R : Fin 256) (p : Fin 2)
    (hR : 128 * n.val + H.val = 2 * R.val + p.val) :
    transpose S4x256x128x128 [0, 3, 1, 2] (shapeCast S4x128x128x256 o h1) ht (ix4 n c H W) = o (ix4 R p W c) := by
  refine (transpose_apply _ _ ht (ix4 n c H W) (ix4 n H W c) fun b => ?_).trans ?_
  · match b with
    | ⟨0, _⟩ => rfl
    | ⟨1, _⟩ => rfl
    | ⟨2, _⟩ => rfl
    | ⟨3, _⟩ => rfl
  refine shapeCast_apply o h1 (ix4 n H W c) (ix4 R p W c) ?_
  rw [Shape.rowMajor_val_four, Shape.rowMajor_val_four]
  show ((R.val * 2 + p.val) * 128 + W.val) * 256 + c.val = ((n.val * 128 + H.val) * 128 + W.val) * 256 + c.val
  omega

/-! ## Inside a tile: sixteen row groups of 128 columns as 2048 rows -/

/-- A [16, 1, 128, 256] tile laid out as 2048 rows: row 128·r + W, column k, is entry (r, 0, W, k). -/
theorem tileRows4_apply (v : S16x1x128x256.Idx → α) (h : S16x1x128x256.ShapeCasts S2048x256)
    (r : Fin 16) (u : Fin 1) (W : Fin 128) (k : Fin 256) (q : Fin 2048) (hq : q.val = 128 * r.val + W.val) :
    shapeCast S2048x256 v h (ix2 q k) = v (ix4 r u W k) := by
  have hu : u.val = 0 := by omega
  refine shapeCast_apply v h (ix2 q k) (ix4 r u W k) ?_
  rw [Shape.rowMajor_val_four, Shape.rowMajor_val_two]
  show ((r.val * 1 + u.val) * 128 + W.val) * 256 + k.val = q.val * 256 + k.val
  omega

/-- A [16, 128, 256] tile laid out as 2048 rows: row 128·r + W, column c, is entry (r, W, c). -/
theorem tileRows3_apply (v : S16x128x256.Idx → α) (h : S16x128x256.ShapeCasts S2048x256)
    (r : Fin 16) (W : Fin 128) (c : Fin 256) (q : Fin 2048) (hq : q.val = 128 * r.val + W.val) :
    shapeCast S2048x256 v h (ix2 q c) = v (ix3 r W c) := by
  refine shapeCast_apply v h (ix2 q c) (ix3 r W c) ?_
  rw [Shape.rowMajor_val_three, Shape.rowMajor_val_two]
  show (r.val * 128 + W.val) * 256 + c.val = q.val * 256 + c.val
  omega

/-- 2048 rows folded back into a [16, 1, 128, 256] tile: entry (r, 0, W, c) is row 128·r + W, column c. -/
theorem tileFold_apply (y : S2048x256.Idx → α) (h : S2048x256.ShapeCasts S16x1x128x256)
    (r : Fin 16) (u : Fin 1) (W : Fin 128) (c : Fin 256) (q : Fin 2048) (hq : q.val = 128 * r.val + W.val) :
    shapeCast S16x1x128x256 y h (ix4 r u W c) = y (ix2 q c) := by
  have hu : u.val = 0 := by omega
  refine shapeCast_apply y h (ix4 r u W c) (ix2 q c) ?_
  rw [Shape.rowMajor_val_four, Shape.rowMajor_val_two]
  show q.val * 256 + c.val = ((r.val * 1 + u.val) * 128 + W.val) * 256 + c.val
  omega

end Cert.ReferenceIdeal.RefValue
-- ==== Proof.RefPrefix.lean ====
/-
  The four arrays the tiled computation is handed, each entry as one entry of an argument.

  Before the tiles are computed the arguments x[n, c, h, w], s[n, k, H, W], a[c, k, 0, 0] and b[c] are only
  re-arranged: the upsampled map U[R, W, c] = x[n, c, h, W / 2] with R = 64·n + h; the skip rows
  K[R, p, W, k] = s[n, k, H, W] with 128·n + H = 2·R + p; the transposed weight A[k, c] = a[c, k, 0, 0]; the bias
  row B[0, c] = b[c]. Each array is first written as the chain of re-arrangements applied to its argument, then
  read at an entry.
-/
import proofs.«141254_g2000605795771744_pallasbulk_1000_13_alg».proof.Proof.Gen.ReferenceIdeal.Frame
import proofs.«141254_g2000605795771744_pallasbulk_1000_13_alg».proof.Proof.RefLayout

noncomputable section

namespace Cert.ReferenceIdeal.RefValue

open Idealize.ShloMosaic Idealize.ShloMosaic.TcCoe Idealize.SL.Sem Idealize.ShloMosaic.ValueIdx
open Cert.ReferenceIdeal Cert.ReferenceIdeal.Gen

variable (m : (ℓ : Loc nD τ sig) → Buf (Elt Ideal) ℓ)

/-- The upsampled map: channels last, each column doubled, rows numbered 64·n + h. -/
theorem upsampled_eq (c : Dev nD) :
    (V m c main_v3 : S256x128x256.Idx → EReal)
      = shapeCast S256x128x256 (shapeCast S4x64x128x256
          (broadcastInDim S4x64x64x2x256 ![0, 1, 2, 4] Gen.bcast_S4x64x64x256_S4x64x64x2x256_0_1_2_4
            (transpose S4x64x64x256 [0, 2, 3, 1] (m ((c.tc : Thread nD τ).loc main_arg0) : S4x256x64x64.Idx → EReal)
              Gen.transposes_S4x256x64x64_S4x64x64x256_0_2_3_1))
          Gen.shapeCasts_S4x64x64x2x256_S4x64x128x256) Gen.shapeCasts_S4x64x128x256_S256x128x256 := by
  show StableHlo.after hostOps0 (fun b => m (c, b)) (Proc.devRef .tc main_v3) = _
  after_results
  rfl

/-- U[R, W, cc] = x[n, cc, h, W / 2] where R = 64·n + h. -/
theorem upsampled_at (c : Dev nD) (R : Fin 256) (W : Fin 128) (cc : Fin 256) (n : Fin 4) (h : Fin 64) (w : Fin 64)
    (hR : R.val = 64 * n.val + h.val) (hW : w.val = W.val / 2) :
    (V m c main_v3 : S256x128x256.Idx → EReal) (ix3 R W cc)
      = (m ((c.tc : Thread nD τ).loc main_arg0) : S4x256x64x64.Idx → EReal) (ix4 n cc h w) := by
  rw [upsampled_eq]
  exact upsampled_apply _ _ _ _ _ R W cc n h w hR hW

/-- The skip rows: channels last, rows 128·n + H split as 2·R + p. -/
theorem skipRows_eq (c : Dev nD) :
    (V m c main_v5 : S256x2x128x256.Idx → EReal)
      = shapeCast S256x2x128x256
          (transpose S4x128x128x256 [0, 2, 3, 1] (m ((c.tc : Thread nD τ).loc main_arg1) : S4x256x128x128.Idx → EReal)
            Gen.transposes_S4x256x128x128_S4x128x128x256_0_2_3_1) Gen.shapeCasts_S4x128x128x256_S256x2x128x256 := by
  show StableHlo.after hostOps0 (fun b => m (c, b)) (Proc.devRef .tc main_v5) = _
  after_results
  rfl

/-- K[R, p, W, k] = s[n, k, H, W] where 128·n + H = 2·R + p. -/
theorem skipRows_at (c : Dev nD) (R : Fin 256) (p : Fin 2) (W : Fin 128) (k : Fin 256) (n : Fin 4) (H : Fin 128)
    (hR : 128 * n.val + H.val = 2 * R.val + p.val) :
    (V m c main_v5 : S256x2x128x256.Idx → EReal) (ix4 R p W k)
      = (m ((c.tc : Thread nD τ).loc main_arg1) : S4x256x128x128.Idx → EReal) (ix4 n k H W) := by
  rw [skipRows_eq]
  exact skipRows_apply _ _ _ R p W k n H hR

/-- The weight without its unit axes, transposed. -/
theorem weightT_eq (c : Dev nD) :
    (V m c main_v7 : S256x256.Idx → EReal)
      = transpose S256x256 [1, 0]
          (shapeCast S256x256 (m ((c.tc : Thread nD τ).loc main_arg2) : S256x256x1x1.Idx → EReal) Gen.shapeCasts_S256x256x1x1_S256x256)
          Gen.transposes_S256x256_S256x256_1_0 := by
  show StableHlo.after hostOps0 (fun b => m (c, b)) (Proc.devRef .tc main_v7) = _
  after_results
  rfl

/-- A[k, cc] = a[cc, k, 0, 0]. -/
theorem weightT_at (c : Dev nD) (k : Fin 256) (cc : Fin 256) :
    (V m c main_v7 : S256x256.Idx → EReal) (ix2 k cc)
      = (m ((c.tc : Thread nD τ).loc main_arg2) : S256x256x1x1.Idx → EReal) (ix4 cc k (0 : Fin 1) (0 : Fin 1)) := by
  rw [weightT_eq]
  exact weightT_apply _ _ _ k cc

/-- The bias as a one-row matrix. -/
theorem biasRow_eq (c : Dev nD) :
    (V m c main_v8 : S1x256.Idx → EReal)
      = shapeCast S1x256 (m ((c.tc : Thread nD τ).loc main_arg3) : S256.Idx → EReal) Gen.shapeCasts_S256_S1x256 := by
  show StableHlo.after hostOps0 (fun b => m (c, b)) (Proc.devRef .tc main_v8) = _
  after_results
  rfl

/-- B[0, cc] = b[cc]. -/
theorem biasRow_at (c : Dev nD) (u : Fin 1) (cc : Fin 256) :
    (V m c main_v8 : S1x256.Idx → EReal) (ix2 u cc) = (m ((c.tc : Thread nD τ).loc main_arg3) : S256.Idx → EReal) (ix1 cc) := by
  rw [biasRow_eq]
  exact biasRow_apply _ _ u cc

end Cert.ReferenceIdeal.RefValue

end
-- ==== Proof.RefBody.lean ====
/-
  What one tile of the feature-pyramid block computes, entry by entry, on the extended reals.

  A tile holds sixteen row groups r of 128 columns W. From the skip tile S[r, 0, W, k], the transposed weight
  A[k, c], the bias row B[0, c] and the upsampled tile X[r, W, c] the body lays the skip tile out as 2048 rows
  (row 128·r + W), multiplies it by the weight into a zero accumulator, adds the bias row to every row, adds the
  upsampled tile laid out the same way, and folds the 2048 rows back. So its entry (r, 0, W, c) is

      ((∑ k, S[r, 0, W, k] · A[k, c]) + B[0, c]) + X[r, W, c] :

  it depends on row (r, W) of the skip tile, column c of the weight, entry c of the bias, and entry (r, W, c) of
  the upsampled tile, and on nothing else.
-/
import proofs.«141254_g2000605795771744_pallasbulk_1000_13_alg».proof.Proof.Gen.ReferenceIdeal.Skeleton
import proofs.«141254_g2000605795771744_pallasbulk_1000_13_alg».proof.Proof.LibPlainMatmul
import proofs.«141254_g2000605795771744_pallasbulk_1000_13_alg».proof.Proof.RefLayout

noncomputable section

open scoped BigOperators

namespace Cert.ReferenceIdeal.RefValue

open Idealize.ShloMosaic Idealize.ShloMosaic.ValueIdx Cert.ReferenceIdeal Cert.ReferenceIdeal.Gen

/-- The printed contraction record is the plain one: an m×k by k×n product contracting the left operand's columns
    with the right operand's rows. -/
theorem dot_eq_plain : dot_S2048x256_S256x256_S2048x256_1_0_0_1_n_n = DotDims.plain 2048 256 256 := rfl

/-- The product of the 2048-row layout of the skip tile with the weight, into the zero accumulator, at row
    q = 128·r + W and column c: the sum over the channels k of S[r, 0, W, k] · A[k, c]. -/
theorem conv_apply (S : FVec Ideal S16x1x128x256 .f32) (A : FVec Ideal S256x256 .f32)
    (h0 : S16x1x128x256.ShapeCasts S16x1x128x256) (h1 : S16x1x128x256.ShapeCasts S2048x256) (hA : S256x256.ShapeCasts S256x256)
    (r : Fin 16) (u : Fin 1) (W : Fin 128) (c : Fin 256) (q : Fin 2048) (hq : q.val = 128 * r.val + W.val) :
    matmul dot_S2048x256_S256x256_S2048x256_1_0_0_1_n_n none (shapeCast S2048x256 (shapeCast S16x1x128x256 S h0) h1)
        (shapeCast S256x256 A hA) (constant S2048x256 .f32 0x00000000#32) (ix2 q c)
      = ∑ k : Fin 256, S (ix4 r u W k) * A (ix2 k c) := by
  rw [dot_eq_plain, shapeCast_self, shapeCast_self]
  refine (matmul_plain_zero_apply none _ A q c).trans ?_
  refine Finset.sum_congr rfl fun k _ => ?_
  exact congrArg (· * A (ix2 k c)) (tileRows4_apply S h1 r u W k q hq)

/-- THE TILE'S ENTRY (r, 0, W, c): the channel sum of the skip tile's row against the weight's column, plus the bias
    entry, plus the upsampled tile's entry. -/
theorem pay_apply (S : Vec Ideal S16x1x128x256 .f32) (A : Vec Ideal S256x256 .f32) (B : Vec Ideal S1x256 .f32)
    (X : Vec Ideal S16x128x256 .f32) (r : Fin 16) (u : Fin 1) (W : Fin 128) (c : Fin 256) :
    k0_pay1 (F := Ideal) S A B X (ix4 r u W c)
      = ((∑ k : Fin 256, S (ix4 r u W k) * A (ix2 k c)) + B (ix2 (0 : Fin 1) c)) + X (ix3 r W c) := by
  have hq : 128 * r.val + W.val < 2048 := by omega
  unfold k0_pay1
  -- fold back: entry (r, 0, W, c) is row q = 128·r + W of the 2048-row sum
  refine (tileFold_apply _ _ r u W c ⟨128 * r.val + W.val, hq⟩ rfl).trans ?_
  -- the two additions are entrywise
  refine (addf_apply _ _ _).trans (congrArg₂ (· + ·) ((addf_apply _ _ _).trans (congrArg₂ (· + ·) ?_ ?_)) ?_)
  · exact conv_apply S A _ _ _ r u W c _ rfl
  · -- every row of the broadcast bias is the bias row
    refine (broadcastTo_1b_ab_apply _ _ _ c).trans ?_
    rw [shapeCast_self]
  · rw [shapeCast_self]
    exact tileRows3_apply X _ r W c _ rfl

/-- The same at an index whose coordinates are named. -/
theorem pay_at (S : Vec Ideal S16x1x128x256 .f32) (A : Vec Ideal S256x256 .f32) (B : Vec Ideal S1x256 .f32)
    (X : Vec Ideal S16x128x256 .f32) (j : S16x1x128x256.Idx) (r : Fin 16) (u : Fin 1) (W : Fin 128) (c : Fin 256)
    (h0 : (j 0).val = r.val) (h1 : (j 1).val = u.val) (h2 : (j 2).val = W.val) (h3 : (j 3).val = c.val) :
    k0_pay1 (F := Ideal) S A B X j
      = ((∑ k : Fin 256, S (ix4 r u W k) * A (ix2 k c)) + B (ix2 (0 : Fin 1) c)) + X (ix3 r W c) := by
  obtain rfl : j = ix4 r u W c := by
    funext a; apply Fin.ext
    match a with
    | ⟨0, _⟩ => exact h0
    | ⟨1, _⟩ => exact h1
    | ⟨2, _⟩ => exact h2
    | ⟨3, _⟩ => exact h3
  exact pay_apply S A B X r u W c

end Cert.ReferenceIdeal.RefValue

end
-- ==== Proof.RefBlocks.lean ====
/-
  From tiles to the whole array: what the tiled computation leaves in its result array.

  The grid has 16 × 2 points. Point (i, p) is handed rows 16·i … 16·i + 15 of the upsampled map U, the same rows of
  the skip rows K at slot p, the whole transposed weight A and the whole bias row B, and writes back rows
  16·i … 16·i + 15 at slot p of the result. By the tile's entry formula, what it writes back is its block of the one
  array

      T[R, p, W, c] = ((∑ k, K[R, p, W, k] · A[k, c]) + B[0, c]) + U[R, W, c],

  and the 32 blocks cover every entry (R, p, W, c): the point is (R / 16, p). So the result array ends holding T.
-/
import proofs.«141254_g2000605795771744_pallasbulk_1000_13_alg».proof.Proof.Gen.ReferenceIdeal.Frame
import proofs.«141254_g2000605795771744_pallasbulk_1000_13_alg».proof.Proof.RefBody
import Idealize.ShloMosaic.Lib.Pipeline.Value

noncomputable section

open scoped BigOperators

namespace Cert.ReferenceIdeal.RefValue

open Idealize.ShloMosaic Idealize.ShloMosaic.TcCoe Idealize.SL.Sem Idealize.ShloMosaic.ValueIdx
open Idealize.ShloMosaic.Pipeline (Dat)
open Cert.ReferenceIdeal Cert.ReferenceIdeal.Gen

/-- The tiled computation's result at explicit coordinates, from the four arrays it is handed. -/
def tiledAt (U : S256x128x256.Idx → EReal) (K : S256x2x128x256.Idx → EReal) (A : S256x256.Idx → EReal) (B : S1x256.Idx → EReal)
    (R : Fin 256) (p : Fin 2) (W : Fin 128) (c : Fin 256) : EReal :=
  ((∑ k : Fin 256, K (ix4 R p W k) * A (ix2 k c)) + B (ix2 (0 : Fin 1) c)) + U (ix3 R W c)

/-- The tiled computation's result array. -/
def tiled (U : S256x128x256.Idx → EReal) (K : S256x2x128x256.Idx → EReal) (A : S256x256.Idx → EReal) (B : S1x256.Idx → EReal) :
    S256x2x128x256.Idx → EReal :=
  fun i => tiledAt U K A B (i 0) (i 1) (i 2) (i 3)

theorem tiled_ix4 (U : S256x128x256.Idx → EReal) (K : S256x2x128x256.Idx → EReal) (A : S256x256.Idx → EReal) (B : S1x256.Idx → EReal)
    (R : Fin 256) (p : Fin 2) (W : Fin 128) (c : Fin 256) : tiled U K A B (ix4 R p W c) = tiledAt U K A B R p W c := rfl

variable (m : (ℓ : Loc nD τ sig) → Buf (Elt Ideal) ℓ)

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-- Which block each window is at, at every grid point: the upsampled map and the skip rows move with the result's
    rows (and the skip rows with its slot), the weight and the bias stay put, and the result's block is (i, p, 0, 0)
    with i ≤ 15 and p ≤ 1. -/
theorem idx_facts : ∀ t : Fin cfg0.N,
    win0_0.index t (0 : Fin 3) = win0_4.index t (0 : Fin 4) ∧ win0_0.index t (1 : Fin 3) = 0 ∧ win0_0.index t (2 : Fin 3) = 0
    ∧ win0_1.index t (0 : Fin 4) = win0_4.index t (0 : Fin 4) ∧ win0_1.index t (1 : Fin 4) = win0_4.index t (1 : Fin 4)
    ∧ win0_1.index t (2 : Fin 4) = 0 ∧ win0_1.index t (3 : Fin 4) = 0
    ∧ win0_2.index t (0 : Fin 2) = 0 ∧ win0_2.index t (1 : Fin 2) = 0
    ∧ win0_3.index t (0 : Fin 2) = 0 ∧ win0_3.index t (1 : Fin 2) = 0
    ∧ win0_4.index t (2 : Fin 4) = 0 ∧ win0_4.index t (3 : Fin 4) = 0
    ∧ win0_4.index t (0 : Fin 4) ≤ 15 ∧ win0_4.index t (1 : Fin 4) ≤ 1 :=
  (by decide +kernel : ∀ t : Fin grid0.N, _)

/-- Every (row block, slot) pair is some point's. -/
theorem idx_onto : ∀ (q0 : Fin 16) (q1 : Fin 2), ∃ t : Fin cfg0.N,
    win0_4.index t (0 : Fin 4) = q0.val ∧ win0_4.index t (1 : Fin 4) = q1.val :=
  (by decide +kernel : ∀ (q0 : Fin 16) (q1 : Fin 2), ∃ t : Fin grid0.N,
    win0_4.index t (0 : Fin 4) = q0.val ∧ win0_4.index t (1 : Fin 4) = q1.val)

/-! ## The input tiles as entries of the arrays -/

/-- The upsampled tile at point t: entry (r, W, cc) is U[16·i + r, W, cc], i the point's row block. -/
theorem tileU_at (c : Dev nD) (t : Fin cfg0.N) (r : Fin 16) (W : Fin 128) (cc : Fin 256) (R : Fin 256)
    (hR : R.val = win0_4.index t (0 : Fin 4) * 16 + r.val) :
    (iblk m c 0 t : Vec Ideal S16x128x256 .f32) (ix3 r W cc) = (V m c main_v3 : S256x128x256.Idx → EReal) (ix3 R W cc) := by
  obtain ⟨e00, e01, e02, -⟩ := idx_facts t
  show (V m c main_v3 : S256x128x256.Idx → EReal) (((cfg0.win 0).blk t).view.emb (ix3 r W cc)) = _
  refine congrArg (V m c main_v3 : S256x128x256.Idx → EReal) (funext fun a => Fin.ext ?_)
  match a with
  | ⟨0, _⟩ => show win0_0.index t (0 : Fin 3) * 16 + 1 * r.val = R.val; omega
  | ⟨1, _⟩ => show win0_0.index t (1 : Fin 3) * 128 + 1 * W.val = W.val; omega
  | ⟨2, _⟩ => show win0_0.index t (2 : Fin 3) * 256 + 1 * cc.val = cc.val; omega

/-- The skip tile at point t: entry (r, 0, W, k) is K[16·i + r, p, W, k], (i, p) the point's row block and slot. -/
theorem tileK_at (c : Dev nD) (t : Fin cfg0.N) (r : Fin 16) (u : Fin 1) (W : Fin 128) (k : Fin 256) (R : Fin 256) (p : Fin 2)
    (hR : R.val = win0_4.index t (0 : Fin 4) * 16 + r.val) (hp : p.val = win0_4.index t (1 : Fin 4)) :
    (iblk m c 1 t : Vec Ideal S16x1x128x256 .f32) (ix4 r u W k) = (V m c main_v5 : S256x2x128x256.Idx → EReal) (ix4 R p W k) := by
  obtain ⟨-, -, -, e10, e11, e12, e13, -⟩ := idx_facts t
  have hu : u.val = 0 := by omega
  show (V m c main_v5 : S256x2x128x256.Idx → EReal) (((cfg0.win 1).blk t).view.emb (ix4 r u W k)) = _
  refine congrArg (V m c main_v5 : S256x2x128x256.Idx → EReal) (funext fun a => Fin.ext ?_)
  match a with
  | ⟨0, _⟩ => show win0_1.index t (0 : Fin 4) * 16 + 1 * r.val = R.val; omega
  | ⟨1, _⟩ => show win0_1.index t (1 : Fin 4) * 1 + 1 * u.val = p.val; omega
  | ⟨2, _⟩ => show win0_1.index t (2 : Fin 4) * 128 + 1 * W.val = W.val; omega
  | ⟨3, _⟩ => show win0_1.index t (3 : Fin 4) * 256 + 1 * k.val = k.val; omega

/-- The weight tile is the whole transposed weight. -/
theorem tileA_at (c : Dev nD) (t : Fin cfg0.N) (k : Fin 256) (cc : Fin 256) :
    (iblk m c 2 t : Vec Ideal S256x256 .f32) (ix2 k cc) = (V m c main_v7 : S256x256.Idx → EReal) (ix2 k cc) := by
  obtain ⟨-, -, -, -, -, -, -, e20, e21, -⟩ := idx_facts t
  show (V m c main_v7 : S256x256.Idx → EReal) (((cfg0.win 2).blk t).view.emb (ix2 k cc)) = _
  refine congrArg (V m c main_v7 : S256x256.Idx → EReal) (funext fun a => Fin.ext ?_)
  match a with
  | ⟨0, _⟩ => show win0_2.index t (0 : Fin 2) * 256 + 1 * k.val = k.val; omega
  | ⟨1, _⟩ => show win0_2.index t (1 : Fin 2) * 256 + 1 * cc.val = cc.val; omega

/-- The bias tile is the whole bias row. -/
theorem tileB_at (c : Dev nD) (t : Fin cfg0.N) (u : Fin 1) (cc : Fin 256) :
    (iblk m c 3 t : Vec Ideal S1x256 .f32) (ix2 u cc) = (V m c main_v8 : S1x256.Idx → EReal) (ix2 u cc) := by
  obtain ⟨-, -, -, -, -, -, -, -, -, e30, e31, -⟩ := idx_facts t
  show (V m c main_v8 : S1x256.Idx → EReal) (((cfg0.win 3).blk t).view.emb (ix2 u cc)) = _
  refine congrArg (V m c main_v8 : S1x256.Idx → EReal) (funext fun a => Fin.ext ?_)
  match a with
  | ⟨0, _⟩ => show win0_3.index t (0 : Fin 2) * 1 + 1 * u.val = u.val; omega
  | ⟨1, _⟩ => show win0_3.index t (1 : Fin 2) * 256 + 1 * cc.val = cc.val; omega

/-! ## What a point writes back, and the whole array -/

/-- WHAT POINT t WRITES BACK is its block of T: rows 16·i … 16·i + 15 at slot p. -/
theorem flushed_eq (c : Dev nD) (t : Fin cfg0.N) :
    (dats m 0 c).flushed 4 t = ((cfg0.win 4).blk t).view.read (Elt Ideal)
      (tiled (V m c main_v3) (V m c main_v5) (V m c main_v7) (V m c main_v8)) := by
  show (cfg0.win 4).cut (grid0.coords t) ((dats m 0 c).after 4 t) = _
  rw [after0_4]
  unfold out0_4
  rw [View.canon_unit_zero hz4]
  simp only [View.ld_unit_zero (S := S16x1x128x256) hz4, View.ld_unit_zero (S := S256x256) hz2,
    View.ld_unit_zero (S := S1x256) hz2, View.ld_unit_zero (S := S16x128x256) hz3]
  obtain ⟨-, -, -, -, -, -, -, -, -, -, -, e42, e43, b0, b1⟩ := idx_facts t
  funext j
  have hj0 : (j 0).val < 16 := (j 0).isLt
  have hj1 : (j 1).val < 1 := (j 1).isLt
  have hj2 : (j 2).val < 128 := (j 2).isLt
  have hj3 : (j 3).val < 256 := (j 3).isLt
  -- the entry inside the tile, and the entry of the array it lands on
  have hR : win0_4.index t (0 : Fin 4) * 16 + (j 0).val < 256 := by omega
  have hp : win0_4.index t (1 : Fin 4) < 2 := by omega
  have hemb : ((cfg0.win 4).blk t).view.emb j
      = ix4 (⟨win0_4.index t (0 : Fin 4) * 16 + (j 0).val, hR⟩ : Fin 256) (⟨win0_4.index t (1 : Fin 4), hp⟩ : Fin 2)
          (⟨(j 2).val, hj2⟩ : Fin 128) (⟨(j 3).val, hj3⟩ : Fin 256) := by
    funext a; apply Fin.ext
    match a with
    | ⟨0, _⟩ => show win0_4.index t (0 : Fin 4) * 16 + 1 * (j 0).val = win0_4.index t (0 : Fin 4) * 16 + (j 0).val; omega
    | ⟨1, _⟩ => show win0_4.index t (1 : Fin 4) * 1 + 1 * (j 1).val = win0_4.index t (1 : Fin 4); omega
    | ⟨2, _⟩ => show win0_4.index t (2 : Fin 4) * 128 + 1 * (j 2).val = (j 2).val; omega
    | ⟨3, _⟩ => show win0_4.index t (3 : Fin 4) * 256 + 1 * (j 3).val = (j 3).val; omega
  show k0_pay1 (iblk m c 1 t) (iblk m c 2 t) (iblk m c 3 t) (iblk m c 0 t) ((cfg0.win 4).xinj (grid0.coords t) j)
      = tiled (V m c main_v3) (V m c main_v5) (V m c main_v7) (V m c main_v8) (((cfg0.win 4).blk t).view.emb j)
  rw [hemb, tiled_ix4]
  refine (pay_at (iblk m c 1 t) (iblk m c 2 t) (iblk m c 3 t) (iblk m c 0 t) ((cfg0.win 4).xinj (grid0.coords t) j)
    ⟨(j 0).val, hj0⟩ ⟨(j 1).val, hj1⟩ ⟨(j 2).val, hj2⟩ ⟨(j 3).val, hj3⟩ rfl rfl rfl rfl).trans ?_
  unfold tiledAt
  refine congrArg₂ (· + ·) (congrArg₂ (· + ·) (Finset.sum_congr rfl fun k _ => congrArg₂ (· * ·) ?_ ?_) ?_) ?_
  · exact tileK_at m c t _ _ _ k _ _ rfl rfl
  · exact tileA_at m c t k _
  · exact tileB_at m c t _ _
  · exact tileU_at m c t _ _ _ _ rfl

/-- An entry of the result array is in point t's block iff each coordinate is in the block's range on its axis. -/
theorem mem_blk (t : Fin cfg0.N) (i : S256x2x128x256.Idx) :
    i ∈ ((cfg0.win 4).blk t).view.set ↔ ∀ a : Fin 4, win0_4.index t a * S16x1x128x256.size a ≤ (i a).val
      ∧ (i a).val < win0_4.index t a * S16x1x128x256.size a + S16x1x128x256.size a := by
  show i ∈ ((View.whole main_v9).slice (win0_4.rect t)).set ↔ _
  rw [View.set_slice_whole, Rect.mem_set_unit]
  exact Iff.rfl

/-- Every entry (R, p, W, c) is in the block of the point with row block R / 16 and slot p. -/
theorem covered (i : S256x2x128x256.Idx) :
    ∃ t : Fin cfg0.N, (cfg0.win 4).flush t = true ∧ i ∈ ((cfg0.win 4).blk t).view.set := by
  have hi0 : (i 0).val < 256 := (i 0).isLt
  have hi1 : (i 1).val < 2 := (i 1).isLt
  have hi2 : (i 2).val < 128 := (i 2).isLt
  have hi3 : (i 3).val < 256 := (i 3).isLt
  obtain ⟨t, q0, q1⟩ := idx_onto ⟨(i 0).val / 16, by omega⟩ ⟨(i 1).val, hi1⟩
  obtain ⟨-, -, -, -, -, -, -, -, -, -, -, e42, e43, -⟩ := idx_facts t
  have q0' : win0_4.index t (0 : Fin 4) = (i 0).val / 16 := q0
  have q1' : win0_4.index t (1 : Fin 4) = (i 1).val := q1
  refine ⟨t, flush0_4 t, ?_⟩
  rw [mem_blk]
  intro a
  match a with
  | ⟨0, _⟩ => show win0_4.index t (0 : Fin 4) * 16 ≤ (i 0).val ∧ (i 0).val < win0_4.index t (0 : Fin 4) * 16 + 16; omega
  | ⟨1, _⟩ => show win0_4.index t (1 : Fin 4) * 1 ≤ (i 1).val ∧ (i 1).val < win0_4.index t (1 : Fin 4) * 1 + 1; omega
  | ⟨2, _⟩ => show win0_4.index t (2 : Fin 4) * 128 ≤ (i 2).val ∧ (i 2).val < win0_4.index t (2 : Fin 4) * 128 + 128; omega
  | ⟨3, _⟩ => show win0_4.index t (3 : Fin 4) * 256 ≤ (i 3).val ∧ (i 3).val < win0_4.index t (3 : Fin 4) * 256 + 256; omega

/-- THE RESULT ARRAY of the tiled computation, after the run, is T of the four arrays it was handed. -/
theorem tiled_final (c : Dev nD) :
    (dats m 0 c).arrAt 4 cfg0.N = tiled (V m c main_v3) (V m c main_v5) (V m c main_v7) (V m c main_v8) :=
  (dats m 0 c).arrAt_eq_of_cover 4 (tiled (V m c main_v3) (V m c main_v5) (V m c main_v7) (V m c main_v8))
    (fun t _ => flushed_eq m c t) covered

end Cert.ReferenceIdeal.RefValue

end
-- ==== Proof.RefTail.lean ====
/-
  From the tiled computation's array to the block's result, as one function of the four arguments.

  The tiled array is T[R, p, W, c] = ((∑ k, K[R, p, W, k] · A[k, c]) + B[0, c]) + U[R, W, c]. With the four arrays
  read back to the arguments — K[R, p, W, k] = s[n, k, H, W] and U[R, W, c] = x[n, c, H / 2, W / 2] whenever
  128·n + H = 2·R + p (so that R = 64·n + H / 2), A[k, c] = a[c, k, 0, 0], B[0, c] = b[c] — this is the block's
  value at (n, c, H, W), term by term, with no algebra needed. What follows the tiles regroups rows (R, p) as (n, H)
  and puts channels first: entry (n, c, H, W) of the final array is T[(128·n + H) / 2, (128·n + H) % 2, W, c].
-/
import proofs.«141254_g2000605795771744_pallasbulk_1000_13_alg».proof.Proof.Spec
import proofs.«141254_g2000605795771744_pallasbulk_1000_13_alg».proof.Proof.RefPrefix
import proofs.«141254_g2000605795771744_pallasbulk_1000_13_alg».proof.Proof.RefBlocks
import Idealize.ShloMosaic.Lib.Pipeline.FrameSuffix

noncomputable section

open scoped BigOperators

namespace Cert.ReferenceIdeal.RefValue

open Idealize.ShloMosaic Idealize.ShloMosaic.TcCoe Idealize.SL.Sem Idealize.ShloMosaic.ValueIdx
open Cert.ReferenceIdeal Cert.ReferenceIdeal.Gen

variable (m : (ℓ : Loc nD τ sig) → Buf (Elt Ideal) ℓ)

/-- T[R, p, W, cc] is the block's value at (n, cc, H, W) whenever row 2·R + p of the skip rows is row 128·n + H. -/
theorem tiledAt_args (c : Dev nD) (R : Fin 256) (p : Fin 2) (W : Fin 128) (cc : Fin 256) (n : Fin 4) (H : Fin 128)
    (hR : 128 * n.val + H.val = 2 * R.val + p.val) :
    tiledAt (V m c main_v3) (V m c main_v5) (V m c main_v7) (V m c main_v8) R p W cc
      = Cert.Fpn.fpnAt (m ((c.tc : Thread nD τ).loc main_arg0)) (m ((c.tc : Thread nD τ).loc main_arg1))
          (m ((c.tc : Thread nD τ).loc main_arg2)) (m ((c.tc : Thread nD τ).loc main_arg3)) n cc H W := by
  have hp : p.val < 2 := p.isLt
  have hh : (Cert.Fpn.half H).val = H.val / 2 := Cert.Fpn.half_val H
  unfold tiledAt Cert.Fpn.fpnAt
  refine congrArg₂ (· + ·) (congrArg₂ (· + ·) (Finset.sum_congr rfl fun k _ => congrArg₂ (· * ·) ?_ ?_) ?_) ?_
  · exact skipRows_at m c R p W k n H hR
  · exact weightT_at m c k cc
  · exact biasRow_at m c 0 cc
  · exact upsampled_at m c R W cc n (Cert.Fpn.half H) (Cert.Fpn.half W) (by omega) (Cert.Fpn.half_val W)

/-- The final array as the regrouping of the tiled computation's. -/
theorem tail_eq (c : Dev nD) :
    (Pipeline.afterTail₀ cfgs (dats m) 0 (V0 m) [hostOps1] c main_v11 : S4x256x128x128.Idx → EReal)
      = transpose S4x256x128x128 [0, 3, 1, 2]
          (shapeCast S4x128x128x256 (tiled (V m c main_v3) (V m c main_v5) (V m c main_v7) (V m c main_v8))
            Gen.shapeCasts_S256x2x128x256_S4x128x128x256)
          Gen.transposes_S4x128x128x256_S4x256x128x128_0_3_1_2 := by
  have hw : Pipeline.withArrays (cfgs 0).spec c (V0 m c) (fun w => (dats m 0 c).arrAt w (cfgs 0).N) (Proc.devRef .tc main_v9)
      = tiled (V m c main_v3) (V m c main_v5) (V m c main_v7) (V m c main_v8) :=
    (Pipeline.withArrays_arr spec0 launch0.win.arr_inj c _ _ 4).trans (tiled_final m c)
  unfold Pipeline.afterTail₀
  show StableHlo.after hostOps1 _ (Proc.devRef .tc main_v11) = _
  after_results
  rw [hw]
  rfl

/-- THE FINAL ARRAY is the block's result array of the four arguments. -/
theorem tail_final (c : Dev nD) :
    (Pipeline.afterTail₀ cfgs (dats m) 0 (V0 m) [hostOps1] c main_v11 : S4x256x128x128.Idx → EReal)
      = Cert.Fpn.fpn (m ((c.tc : Thread nD τ).loc main_arg0)) (m ((c.tc : Thread nD τ).loc main_arg1))
          (m ((c.tc : Thread nD τ).loc main_arg2)) (m ((c.tc : Thread nD τ).loc main_arg3)) := by
  rw [tail_eq]
  funext i
  obtain ⟨n, cc, H, W, rfl⟩ : ∃ (n : Fin 4) (cc : Fin 256) (H : Fin 128) (W : Fin 128), i = ix4 n cc H W :=
    ⟨i 0, i 1, i 2, i 3, eq_ix4 i⟩
  have hRlt : (128 * n.val + H.val) / 2 < 256 := by omega
  have hplt : (128 * n.val + H.val) % 2 < 2 := by omega
  have hsplit : 128 * n.val + H.val = 2 * ((128 * n.val + H.val) / 2) + (128 * n.val + H.val) % 2 := by omega
  -- entry (n, cc, H, W) is T at row (128·n + H) / 2, slot (128·n + H) % 2
  refine (regrouped_apply _ _ _ n cc H W ⟨(128 * n.val + H.val) / 2, hRlt⟩ ⟨(128 * n.val + H.val) % 2, hplt⟩ hsplit).trans ?_
  rw [tiled_ix4, Cert.Fpn.fpn_ix4]
  exact tiledAt_args m c _ _ W cc n H hsplit

end Cert.ReferenceIdeal.RefValue

end
-- ==== Proof.RefRun.lean ====
/-
  The reference program's run, read: it ends with the block's result array in its result buffer and its four
  arguments unchanged.

  The generated frame run leaves the result buffer at what the two re-arrangements after the tiles make of the tiled
  computation's array, and every argument as it was; the former is the block's result array of the arguments.
-/
import proofs.«141254_g2000605795771744_pallasbulk_1000_13_alg».proof.Proof.RefTail

noncomputable section

namespace Cert.ReferenceIdeal.RefValue

open Idealize.ShloMosaic Idealize.ShloMosaic.TcCoe Idealize.SL.Sem
open Cert.ReferenceIdeal Cert.ReferenceIdeal.Gen

/-- Every weakly fair execution of the reference from a memory `m` with zero counters terminates without a fault, with
    the result buffer holding the feature-pyramid block of the four argument arrays and the arguments unchanged. -/
theorem run (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ (fun r => ∀ c : Dev nD,
      r.2.mem ((c.tc : Thread nD τ).loc main_v11) = Cert.Fpn.fpn (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v11 (Pipeline.mem_restRefs_of main_v11 (by decide) (by decide))).trans (tail_final m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.ReferenceIdeal.RefValue

end
-- ==== Proof.lean ====
/-
  The feature-pyramid block: a tiled kernel against a tiled reference, equal on the extended reals.

  Both programs compute, at (n, c, H, W),

      (∑ k, s[n, k, H, W] · a[c, k, 0, 0]) + b[c] + x[n, c, H / 2, W / 2]

  of a low-resolution map x, a skip map s, a 1×1 convolution weight a and a bias b (Proof/Spec.lean). The kernel keeps
  the channels-first layout, works on blocks of 32 rows of one batch, multiplies the weight matrix by each skip row,
  and doubles each low-resolution row's width by a product with a 0/1 interleave matrix; the reference moves channels
  last, repeats x along the width on the host, and multiplies pixels by the transposed weight. On the extended reals
  the two differ only in the order of the factors inside the sums, in the grouping of the three summands, and in how
  the width doubling is spelt — the interleave product has one non-zero term —, so no finiteness of the inputs is used.

  The kernel's side is Proof/KRow.lean (one row of a block at an entry), Proof/KUpsample.lean (the interleave matrix),
  Proof/KBlock.lean (a block as one function of its loaded blocks) and Proof/KArray.lean (the blocks tile the result);
  the reference's side is Proof/RefLayout.lean to Proof/RefRun.lean. The three frames are the generated ones; the
  idealization rewrote nothing, so there is nothing to preserve.
-/
import proofs.«141254_g2000605795771744_pallasbulk_1000_13_alg».proof.Defs
import proofs.«141254_g2000605795771744_pallasbulk_1000_13_alg».proof.Proof.Gen.Kernel
import proofs.«141254_g2000605795771744_pallasbulk_1000_13_alg».proof.Proof.Gen.Kernel.Skeleton
import proofs.«141254_g2000605795771744_pallasbulk_1000_13_alg».proof.Proof.Gen.Kernel.Launch
import proofs.«141254_g2000605795771744_pallasbulk_1000_13_alg».proof.Proof.Gen.Kernel.Points
import proofs.«141254_g2000605795771744_pallasbulk_1000_13_alg».proof.Proof.Gen.Kernel.Frame
import proofs.«141254_g2000605795771744_pallasbulk_1000_13_alg».proof.Proof.Gen.KernelIdeal
import proofs.«141254_g2000605795771744_pallasbulk_1000_13_alg».proof.Proof.Gen.KernelIdeal.Skeleton
import proofs.«141254_g2000605795771744_pallasbulk_1000_13_alg».proof.Proof.Gen.KernelIdeal.Launch
import proofs.«141254_g2000605795771744_pallasbulk_1000_13_alg».proof.Proof.Gen.KernelIdeal.Points
import proofs.«141254_g2000605795771744_pallasbulk_1000_13_alg».proof.Proof.Gen.KernelIdeal.Frame
import proofs.«141254_g2000605795771744_pallasbulk_1000_13_alg».proof.Proof.Gen.KernelIdeal.Value
import proofs.«141254_g2000605795771744_pallasbulk_1000_13_alg».proof.Proof.Gen.ReferenceIdeal
import proofs.«141254_g2000605795771744_pallasbulk_1000_13_alg».proof.Proof.Gen.ReferenceIdeal.Skeleton
import proofs.«141254_g2000605795771744_pallasbulk_1000_13_alg».proof.Proof.Gen.ReferenceIdeal.Launch
import proofs.«141254_g2000605795771744_pallasbulk_1000_13_alg».proof.Proof.Gen.ReferenceIdeal.Points
import proofs.«141254_g2000605795771744_pallasbulk_1000_13_alg».proof.Proof.Gen.ReferenceIdeal.Frame
import proofs.«141254_g2000605795771744_pallasbulk_1000_13_alg».proof.Proof.Gen.Pre_finite_inputs
import proofs.«141254_g2000605795771744_pallasbulk_1000_13_alg».proof.Proof.KArray
import proofs.«141254_g2000605795771744_pallasbulk_1000_13_alg».proof.Proof.RefRun
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does the kernel read on the extended reals, -/
theorem frame_kernelIdeal : Cert.frame_KernelIdeal := fun m ρ _ => Cert.KernelIdeal.Gen.frame m ρ

/-- and so does the reference. -/
theorem frame_referenceIdeal : Cert.frame_ReferenceIdeal := fun m ρ _ => Cert.ReferenceIdeal.Gen.frame m ρ

/-- From memories that agree on the four arguments both programs end with the feature-pyramid block of those arguments
    in their result buffers: the kernel's result array is that function of its arguments, the reference's of its own, and
    the arguments are the same arrays. -/
theorem algebraic : Cert.algebraic_KernelIdeal_ReferenceIdeal := by
  intro m ρ m' ρ' _ hagree
  refine ⟨fun c => Cert.Fpn.fpn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.KValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
